-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1250000 32) (main_arg2 : FVec F S64x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S100000 : Shape := ⟨1, ![100000]⟩
abbrev S1x1250000 : Shape := ⟨2, ![1, 1250000]⟩
abbrev S1250000 : Shape := ⟨1, ![1250000]⟩
abbrev S1350000 : Shape := ⟨1, ![1350000]⟩
abbrev S_ : Shape := ⟨0, ![]⟩
abbrev S1350000x1 : Shape := ⟨2, ![1350000, 1]⟩
abbrev S10000x64 : Shape := ⟨2, ![10000, 64]⟩
abbrev S1350000x64 : Shape := ⟨2, ![1350000, 64]⟩
abbrev S1x64 : Shape := ⟨2, ![1, 64]⟩

abbrev nBuf : Space → Nat
  | .hbm => 104
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1250000, .i32⟩
  | .hbm, ⟨10, _⟩ => ⟨S1250000, .i32⟩
  | .hbm, ⟨11, _⟩ => ⟨S1350000, .i32⟩
  | .hbm, ⟨12, _⟩ => ⟨S1x1250000, .i32⟩
  | .hbm, ⟨13, _⟩ => ⟨S1250000, .i32⟩
  | .hbm, ⟨14, _⟩ => ⟨S1350000, .i32⟩
  | .hbm, ⟨15, _⟩ => ⟨S_, .f32⟩
  | .hbm, ⟨16, _⟩ => ⟨S1350000, .f32⟩
  | .hbm, ⟨17, _⟩ => ⟨S_, .f32⟩
  | .hbm, ⟨18, _⟩ => ⟨S100000, .f32⟩
  | .hbm, ⟨19, _⟩ => ⟨S1350000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1350000, .i32⟩
  | .hbm, ⟨31, _⟩ => ⟨S1350000, .i1⟩
  | .hbm, ⟨32, _⟩ => ⟨S_, .i32⟩
  | .hbm, ⟨33, _⟩ => ⟨S1350000, .i32⟩
  | .hbm, ⟨34, _⟩ => ⟨S1350000, .i32⟩
  | .hbm, ⟨35, _⟩ => ⟨S1350000, .i32⟩
  | .hbm, ⟨36, _⟩ => ⟨S1350000x1, .i32⟩
  | .hbm, ⟨37, _⟩ => ⟨S1350000, .f32⟩
  | .hbm, ⟨38, _⟩ => ⟨S_, .i32⟩
  | .hbm, ⟨39, _⟩ => ⟨S1350000, .i32⟩
  | .hbm, ⟨40, _⟩ => ⟨S1350000, .i1⟩
  | .hbm, ⟨41, _⟩ => ⟨S_, .i32⟩
  | .hbm, ⟨42, _⟩ => ⟨S1350000, .i32⟩
  | .hbm, ⟨43, _⟩ => ⟨S1350000, .i32⟩
  | .hbm, ⟨44, _⟩ => ⟨S1350000, .i32⟩
  | .hbm, ⟨45, _⟩ => ⟨S1350000x1, .i32⟩
  | .hbm, ⟨46, _⟩ => ⟨S1350000, .f32⟩
  | .hbm, ⟨47, _⟩ => ⟨S1350000, .f32⟩
  | .hbm, ⟨48, _⟩ => ⟨S1350000x1, .f32⟩
  | .hbm, ⟨49, _⟩ => ⟨S100000x64, .bf16⟩
  | .hbm, ⟨50, _⟩ => ⟨S_, .i32⟩
  | .hbm, ⟨51, _⟩ => ⟨S1350000, .i32⟩
  | .hbm, ⟨52, _⟩ => ⟨S1350000, .i1⟩
  | .hbm, ⟨53, _⟩ => ⟨S_, .i32⟩
  | .hbm, ⟨54, _⟩ => ⟨S1350000, .i32⟩
  | .hbm, ⟨55, _⟩ => ⟨S1350000, .i32⟩
  | .hbm, ⟨56, _⟩ => ⟨S1350000, .i32⟩
  | .hbm, ⟨57, _⟩ => ⟨S1350000x1, .i32⟩
  | .hbm, ⟨58, _⟩ => ⟨S1350000x64, .bf16⟩
  | .hbm, ⟨59, _⟩ => ⟨S1350000x64, .f32⟩
  | .hbm, ⟨60, _⟩ => ⟨S1350000x64, .f32⟩
  | .hbm, ⟨61, _⟩ => ⟨S1350000x64, .f32⟩
  | .hbm, ⟨62, _⟩ => ⟨S_, .f32⟩
  | .hbm, ⟨63, _⟩ => ⟨S100000x64, .f32⟩
  | .hbm, ⟨64, _⟩ => ⟨S1350000x1, .i32⟩
  | .hbm, ⟨65, _⟩ => ⟨S100000x64, .f32⟩
  | .hbm, ⟨66, _⟩ => ⟨S1x64, .f32⟩
  | .hbm, ⟨67, _⟩ => ⟨S100000x64, .bf16⟩
  | .hbm, ⟨68, _⟩ => ⟨S_, .i32⟩
  | .hbm, ⟨69, _⟩ => ⟨S1350000, .i32⟩
  | .hbm, ⟨70, _⟩ => ⟨S1350000, .i1⟩
  | .hbm, ⟨71, _⟩ => ⟨S_, .i32⟩
  | .hbm, ⟨72, _⟩ => ⟨S1350000, .i32⟩
  | .hbm, ⟨73, _⟩ => ⟨S1350000, .i32⟩
  | .hbm, ⟨74, _⟩ => ⟨S1350000, .i32⟩
  | .hbm, ⟨75, _⟩ => ⟨S1350000x1, .i32⟩
  | .hbm, ⟨76, _⟩ => ⟨S1350000x64, .bf16⟩
  | .hbm, ⟨77, _⟩ => ⟨S1350000x64, .f32⟩
  | .hbm, ⟨78, _⟩ => ⟨S1350000x64, .f32⟩
  | .hbm, ⟨79, _⟩ => ⟨S1350000x64, .f32⟩
  | .hbm, ⟨80, _⟩ => ⟨S_, .f32⟩
  | .hbm, ⟨81, _⟩ => ⟨S100000x64, .f32⟩
  | .hbm, ⟨82, _⟩ => ⟨S1350000x1, .i32⟩
  | .hbm, ⟨83, _⟩ => ⟨S100000x64, .f32⟩
  | .hbm, ⟨84, _⟩ => ⟨S1x64, .f32⟩
  | .hbm, ⟨85, _⟩ => ⟨S100000x64, .bf16⟩
  | .hbm, ⟨86, _⟩ => ⟨S_, .i32⟩
  | .hbm, ⟨87, _⟩ => ⟨S1350000, .i32⟩
  | .hbm, ⟨88, _⟩ => ⟨S1350000, .i1⟩
  | .hbm, ⟨89, _⟩ => ⟨S_, .i32⟩
  | .hbm, ⟨90, _⟩ => ⟨S1350000, .i32⟩
  | .hbm, ⟨91, _⟩ => ⟨S1350000, .i32⟩
  | .hbm, ⟨92, _⟩ => ⟨S1350000, .i32⟩
  | .hbm, ⟨93, _⟩ => ⟨S1350000x1, .i32⟩
  | .hbm, ⟨94, _⟩ => ⟨S1350000x64, .bf16⟩
  | .hbm, ⟨95, _⟩ => ⟨S1350000x64, .f32⟩
  | .hbm, ⟨96, _⟩ => ⟨S1350000x64, .f32⟩
  | .hbm, ⟨97, _⟩ => ⟨S1350000x64, .f32⟩
  | .hbm, ⟨98, _⟩ => ⟨S_, .f32⟩
  | .hbm, ⟨99, _⟩ => ⟨S100000x64, .f32⟩
  | .hbm, ⟨100, _⟩ => ⟨S1350000x1, .i32⟩
  | .hbm, ⟨101, _⟩ => ⟨S100000x64, .f32⟩
  | .hbm, ⟨102, _⟩ => ⟨S1x64, .f32⟩
  | .hbm, ⟨103, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .bf16⟩
  | .local _ .vmem, ⟨4, _⟩ => ⟨S10000x64, .bf16⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .bf16⟩
  | .local _ .vmem, ⟨10, _⟩ => ⟨S10000x64, .bf16⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .bf16⟩
  | .local _ .vmem, ⟨16, _⟩ => ⟨S10000x64, .bf16⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_14 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  packedbf16_S10000x64_S10000x64_0_0 : (Rect.unit (s := S10000x64) ![0, 0] S10000x64.size inb_S10000x64_S10000x64_0_0).PackedRows (EltTy.packing .bf16)
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  dot_S10000x64_S64x64_S10000x64_1_0_0_1_n_n_wf : DotDims.WF S10000x64 S64x64 S10000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .bf16 = 32 ∨ (Rect.block (s := S100000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .bf16 = 32 ∨ (Rect.block (s := S100000x64) S10000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .bf16 = 32 ∨ (Rect.block (s := S100000x64) S10000x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v74) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S100000 : Shape := ⟨1, ![100000]⟩
abbrev S1x1250000 : Shape := ⟨2, ![1, 1250000]⟩
abbrev S1250000 : Shape := ⟨1, ![1250000]⟩
abbrev S1350000 : Shape := ⟨1, ![1350000]⟩
abbrev S_ : Shape := ⟨0, ![]⟩
abbrev S1350000x1 : Shape := ⟨2, ![1350000, 1]⟩
abbrev S1350000x64 : Shape := ⟨2, ![1350000, 64]⟩
abbrev S1x64 : Shape := ⟨2, ![1, 64]⟩

abbrev nBuf : Space → Nat
  | .hbm => 112
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1250000, .i32⟩
  | .hbm, ⟨10, _⟩ => ⟨S1250000, .i32⟩
  | .hbm, ⟨11, _⟩ => ⟨S1350000, .i32⟩
  | .hbm, ⟨12, _⟩ => ⟨S1x1250000, .i32⟩
  | .hbm, ⟨13, _⟩ => ⟨S1250000, .i32⟩
  | .hbm, ⟨14, _⟩ => ⟨S1350000, .i32⟩
  | .hbm, ⟨15, _⟩ => ⟨S_, .f32⟩
  | .hbm, ⟨16, _⟩ => ⟨S1350000, .f32⟩
  | .hbm, ⟨17, _⟩ => ⟨S_, .f32⟩
  | .hbm, ⟨18, _⟩ => ⟨S100000, .f32⟩
  | .hbm, ⟨19, _⟩ => ⟨S1350000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1350000, .i32⟩
  | .hbm, ⟨31, _⟩ => ⟨S1350000, .i1⟩
  | .hbm, ⟨32, _⟩ => ⟨S_, .i32⟩
  | .hbm, ⟨33, _⟩ => ⟨S1350000, .i32⟩
  | .hbm, ⟨34, _⟩ => ⟨S1350000, .i32⟩
  | .hbm, ⟨35, _⟩ => ⟨S1350000, .i32⟩
  | .hbm, ⟨36, _⟩ => ⟨S1350000x1, .i32⟩
  | .hbm, ⟨37, _⟩ => ⟨S1350000, .f32⟩
  | .hbm, ⟨38, _⟩ => ⟨S_, .i32⟩
  | .hbm, ⟨39, _⟩ => ⟨S1350000, .i32⟩
  | .hbm, ⟨40, _⟩ => ⟨S1350000, .i1⟩
  | .hbm, ⟨41, _⟩ => ⟨S_, .i32⟩
  | .hbm, ⟨42, _⟩ => ⟨S1350000, .i32⟩
  | .hbm, ⟨43, _⟩ => ⟨S1350000, .i32⟩
  | .hbm, ⟨44, _⟩ => ⟨S1350000, .i32⟩
  | .hbm, ⟨45, _⟩ => ⟨S1350000x1, .i32⟩
  | .hbm, ⟨46, _⟩ => ⟨S1350000, .f32⟩
  | .hbm, ⟨47, _⟩ => ⟨S1350000, .f32⟩
  | .hbm, ⟨48, _⟩ => ⟨S1350000x1, .f32⟩
  | .hbm, ⟨49, _⟩ => ⟨S100000x64, .f32⟩
  | .hbm, ⟨50, _⟩ => ⟨S_, .i32⟩
  | .hbm, ⟨51, _⟩ => ⟨S1350000, .i32⟩
  | .hbm, ⟨52, _⟩ => ⟨S1350000, .i1⟩
  | .hbm, ⟨53, _⟩ => ⟨S_, .i32⟩
  | .hbm, ⟨54, _⟩ => ⟨S1350000, .i32⟩
  | .hbm, ⟨55, _⟩ => ⟨S1350000, .i32⟩
  | .hbm, ⟨56, _⟩ => ⟨S1350000, .i32⟩
  | .hbm, ⟨57, _⟩ => ⟨S1350000x1, .i32⟩
  | .hbm, ⟨58, _⟩ => ⟨S1350000x64, .f32⟩
  | .hbm, ⟨59, _⟩ => ⟨S1350000x64, .f32⟩
  | .hbm, ⟨60, _⟩ => ⟨S1350000x64, .f32⟩
  | .hbm, ⟨61, _⟩ => ⟨S_, .f32⟩
  | .hbm, ⟨62, _⟩ => ⟨S100000x64, .f32⟩
  | .hbm, ⟨63, _⟩ => ⟨S1350000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S1350000, .i32⟩
  | .hbm, ⟨74, _⟩ => ⟨S1350000, .i1⟩
  | .hbm, ⟨75, _⟩ => ⟨S_, .i32⟩
  | .hbm, ⟨76, _⟩ => ⟨S1350000, .i32⟩
  | .hbm, ⟨77, _⟩ => ⟨S1350000, .i32⟩
  | .hbm, ⟨78, _⟩ => ⟨S1350000, .i32⟩
  | .hbm, ⟨79, _⟩ => ⟨S1350000x1, .i32⟩
  | .hbm, ⟨80, _⟩ => ⟨S1350000x64, .f32⟩
  | .hbm, ⟨81, _⟩ => ⟨S1350000x64, .f32⟩
  | .hbm, ⟨82, _⟩ => ⟨S1350000x64, .f32⟩
  | .hbm, ⟨83, _⟩ => ⟨S_, .f32⟩
  | .hbm, ⟨84, _⟩ => ⟨S100000x64, .f32⟩
  | .hbm, ⟨85, _⟩ => ⟨S1350000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S_, .i32⟩
  | .hbm, ⟨95, _⟩ => ⟨S1350000, .i32⟩
  | .hbm, ⟨96, _⟩ => ⟨S1350000, .i1⟩
  | .hbm, ⟨97, _⟩ => ⟨S_, .i32⟩
  | .hbm, ⟨98, _⟩ => ⟨S1350000, .i32⟩
  | .hbm, ⟨99, _⟩ => ⟨S1350000, .i32⟩
  | .hbm, ⟨100, _⟩ => ⟨S1350000, .i32⟩
  | .hbm, ⟨101, _⟩ => ⟨S1350000x1, .i32⟩
  | .hbm, ⟨102, _⟩ => ⟨S1350000x64, .f32⟩
  | .hbm, ⟨103, _⟩ => ⟨S1350000x64, .f32⟩
  | .hbm, ⟨104, _⟩ => ⟨S1350000x64, .f32⟩
  | .hbm, ⟨105, _⟩ => ⟨S_, .f32⟩
  | .hbm, ⟨106, _⟩ => ⟨S100000x64, .f32⟩
  | .hbm, ⟨107, _⟩ => ⟨S1350000x1, .i32⟩
  | .hbm, ⟨108, _⟩ => ⟨S100000x64, .f32⟩
  | .hbm, ⟨109, _⟩ => ⟨S1x64, .f32⟩
  | .hbm, ⟨110, _⟩ => ⟨S100000x64, .f32⟩
  | .hbm, ⟨111, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call2_cst : Ref sig .tc := ⟨.hbm, 90, rfl⟩
abbrev main_call2_v0 : Ref sig .tc := ⟨.hbm, 91, rfl⟩
abbrev main_v64 : Ref sig .tc := ⟨.hbm, 92, rfl⟩
abbrev main_v65 : Ref sig .tc := ⟨.hbm, 93, rfl⟩
abbrev main_c_12 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  dot_S100000x64_S64x64_S100000x64_1_0_0_1_n_n_wf : DotDims.WF S100000x64 S64x64 S100000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf

class Facts : Prop extends Facts₀ where

variable [Facts]
-- ==== Proof.KernelRun.lean ====
/-
  The kernel's run, read at its result: from any memory with zero counters every weakly fair execution of the four
  regions and the host code between them terminates without a fault, the result buffer ends at what the last
  boundary of the run holds there (`W10`), and the eight argument arrays end as they were launched.

  This is the launch of the program's ten segments (six stretches of host code, four regions) with the final state
  read at the result buffer as well as at the arguments.
-/
import proofs.«160670_j38654705664006_2_alg».proof.Proof.Gen.KernelIdeal.Frame

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_result : θ_run defs (onTc (τ := τ) (main (F := F))) ⟨m, fun _ => 0, ρ⟩ (fun r => ∀ c : Dev nD,
      r.2.mem ((c.tc : Thread nD τ).loc main_v76) = W10 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v76 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Body

end
-- ==== Proof.HostAgg.lean ====
/-
  The aggregation between two regions, as one function of four arrays.

  Between two of its regions the kernel's host code takes the previous region's result hw (100000 x 64, stored in
  the narrow format), the edge sources s and targets d (1350000 indices, self-loops included) and the edge weights n
  (one column), and computes: gather the rows of hw at the sources (a negative index wrapped by adding 100000),
  widen them (a change of format: nothing, on the extended reals), scale row e by n(e), and add the rows into a
  zero array at their targets. The reference does the same to its own previous stage, without the change of format.
  So at the reference's stage values the kernel's aggregate IS the reference's next aggregate stage.
-/
import proofs.«160670_j38654705664006_2_alg».proof.Proof.ReadP
import proofs.«160670_j38654705664006_2_alg».proof.Proof.Gen.KernelIdeal

set_option maxRecDepth 16384

noncomputable section

namespace Cert.Bridge

open Idealize.ShloMosaic

section
open Cert.KernelIdeal Cert.KernelIdeal.Facts₀ Cert.KernelIdeal.Facts

/-- Gather at the wrapped sources, widen, scale by the edge weights, add into zeros at the targets. -/
def kernelAgg (hw : (⟨S100000x64, .bf16⟩ : BufTy).Contents (Elt Ideal)) (s d : (⟨S1350000, .i32⟩ : BufTy).Contents (Elt Ideal)) (n : (⟨S1350000x1, .f32⟩ : BufTy).Contents (Elt Ideal)) :
    (⟨S100000x64, .f32⟩ : BufTy).Contents (Elt Ideal) :=
  Host.scatterAdd scatter_S100000x64_S1350000x1_S1350000x64_1_0_0_1
    (broadcastInDim S100000x64 ![] bcast_S_S100000x64 (constant (F := Ideal) S_ .f32 0x00000000#32))
    (broadcastInDim S1350000x1 ![0] bcast_S1350000_S1350000x1_0 d)
    (mulf
      (extf .f32
        (Host.gather gather_S100000x64_S1350000x1_S1350000x64_1_0_n_n_0_1_164 hw
          (broadcastInDim S1350000x1 ![0] bcast_S1350000_S1350000x1_0
            (select (cmpi .slt s (broadcastInDim S1350000 ![] bcast_S_S1350000 (constantI S_ 32 0#32)))
              (addi s (broadcastInDim S1350000 ![] bcast_S_S1350000 (constantI S_ 32 100000#32))) s)))
        bitsLt_bf16_f32)
      (broadcastInDim S1350000x64 ![0, 1] bcast_S1350000x1_S1350000x64_0_1 n))

/-- The inverse square-root degree where the degree is positive, the given zero elsewhere. -/
def kernelDinv (p : (⟨S100000, .i1⟩ : BufTy).Contents (Elt Ideal)) (r : (⟨S100000, .f32⟩ : BufTy).Contents (Elt Ideal)) (z : (⟨S_, .f32⟩ : BufTy).Contents (Elt Ideal)) :
    (⟨S100000, .f32⟩ : BufTy).Contents (Elt Ideal) :=
  select p r (broadcastInDim S100000 ![] bcast_S_S100000 (id z))

/-- The edge weights as one column: for each edge the product of the node values dv at its source and at its target
    (a negative index wrapped by adding 100000). -/
def kernelNorm (dv : (⟨S100000, .f32⟩ : BufTy).Contents (Elt Ideal)) (s d : (⟨S1350000, .i32⟩ : BufTy).Contents (Elt Ideal)) : (⟨S1350000x1, .f32⟩ : BufTy).Contents (Elt Ideal) :=
  broadcastInDim S1350000x1 ![0] bcast_S1350000_S1350000x1_0
    ((mulf (F := Ideal)
      (Host.gather gather_S100000_S1350000x1_S1350000_n_0_n_n_0_1_1 dv
        (broadcastInDim S1350000x1 ![0] bcast_S1350000_S1350000x1_0
          (select (cmpi .slt s (broadcastInDim S1350000 ![] bcast_S_S1350000 (constantI S_ 32 0#32)))
            (addi s (broadcastInDim S1350000 ![] bcast_S_S1350000 (constantI S_ 32 100000#32))) s)))
      (Host.gather gather_S100000_S1350000x1_S1350000_n_0_n_n_0_1_1 dv
        (broadcastInDim S1350000x1 ![0] bcast_S1350000_S1350000x1_0
          (select (cmpi .slt d (broadcastInDim S1350000 ![] bcast_S_S1350000 (constantI S_ 32 0#32)))
            (addi d (broadcastInDim S1350000 ![] bcast_S_S1350000 (constantI S_ 32 100000#32))) d)))) : FVec Ideal S1350000 .f32)

end

open Cert.ReferenceIdeal Cert.ReferenceIdeal.ReadP

/-- Widening the narrow format is the identity on the extended reals. -/
theorem widen_eq {s : Shape} (v : FVec Ideal s .bf16) (h : FTy.bits .bf16 < FTy.bits .f32) :
    (extf .f32 v h : FVec Ideal s .f32) = v := rfl

/-- Layer one: the aggregate of the reference's first product is its stage `val_main_v43`. -/
theorem kernelAgg_eq43 (x0 : (⟨S100000x64, .f32⟩ : BufTy).Contents (Elt Ideal)) (x1 : (⟨S2x1250000, .i32⟩ : BufTy).Contents (Elt Ideal)) (x2 : (⟨S64x64, .f32⟩ : BufTy).Contents (Elt Ideal)) :
    kernelAgg (val_main_v31 (F := Ideal) x0 x2) (val_main_v3 (F := Ideal) x1) (val_main_v6 (F := Ideal) x1) (val_main_v30 (F := Ideal) x1)
      = val_main_v43 (F := Ideal) x0 x1 x2 := by
  unfold val_main_v43 val_main_v42 val_main_v41 val_main_cst_8 val_main_v40 val_main_v39 val_main_v38 val_main_v37 val_main_v36 val_main_v35 val_main_v34 val_main_c_7 val_main_v33 val_main_v32 val_main_c_6
  generalize val_main_v31 (F := Ideal) x0 x2 = hw
  generalize val_main_v3 (F := Ideal) x1 = s
  generalize val_main_v6 (F := Ideal) x1 = d
  generalize val_main_v30 (F := Ideal) x1 = n
  unfold kernelAgg
  rw [widen_eq]
  rfl

/-- Layer two: the aggregate of the reference's second product is its stage `val_main_v60`. -/
theorem kernelAgg_eq60 (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) :
    kernelAgg (val_main_v48 (F := Ideal) x0 x1 x2 x3 x4) (val_main_v3 (F := Ideal) x1) (val_main_v6 (F := Ideal) x1) (val_main_v30 (F := Ideal) x1)
      = val_main_v60 (F := Ideal) x0 x1 x2 x3 x4 := by
  unfold val_main_v60 val_main_v59 val_main_v58 val_main_cst_11 val_main_v57 val_main_v56 val_main_v55 val_main_v54 val_main_v53 val_main_v52 val_main_v51 val_main_c_10 val_main_v50 val_main_v49 val_main_c_9
  generalize val_main_v48 (F := Ideal) x0 x1 x2 x3 x4 = hw
  generalize val_main_v3 (F := Ideal) x1 = s
  generalize val_main_v6 (F := Ideal) x1 = d
  generalize val_main_v30 (F := Ideal) x1 = n
  unfold kernelAgg
  rw [widen_eq]
  rfl

/-- Layer three: the aggregate of the reference's third product is its stage `val_main_v77`. -/
theorem kernelAgg_eq77 (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) :
    kernelAgg (val_main_v65 (F := Ideal) x0 x1 x2 x3 x4 x5 x6) (val_main_v3 (F := Ideal) x1) (val_main_v6 (F := Ideal) x1) (val_main_v30 (F := Ideal) x1)
      = val_main_v77 (F := Ideal) x0 x1 x2 x3 x4 x5 x6 := by
  unfold val_main_v77 val_main_v76 val_main_v75 val_main_cst_14 val_main_v74 val_main_v73 val_main_v72 val_main_v71 val_main_v70 val_main_v69 val_main_v68 val_main_c_13 val_main_v67 val_main_v66 val_main_c_12
  generalize val_main_v65 (F := Ideal) x0 x1 x2 x3 x4 x5 x6 = hw
  generalize val_main_v3 (F := Ideal) x1 = s
  generalize val_main_v6 (F := Ideal) x1 = d
  generalize val_main_v30 (F := Ideal) x1 = n
  unfold kernelAgg
  rw [widen_eq]
  rfl

/-- The reference's inverse square-root degree stage is the same selection. -/
theorem kernelDinv_eq14 (x1 : (⟨S2x1250000, .i32⟩ : BufTy).Contents (Elt Ideal)) :
    kernelDinv (val_main_v12 (F := Ideal) x1) (val_main_v13 (F := Ideal) x1) (val_main_cst_2 (F := Ideal))
      = val_main_v14 (F := Ideal) x1 := by
  unfold val_main_v14 val_main_call0_v1 val_main_call0_v0
  generalize val_main_v12 (F := Ideal) x1 = p
  generalize val_main_v13 (F := Ideal) x1 = r
  generalize val_main_cst_2 (F := Ideal) = z
  unfold kernelDinv
  rfl

/-- The reference's edge-weight stage is the same column. -/
theorem kernelNorm_eq30 (x1 : (⟨S2x1250000, .i32⟩ : BufTy).Contents (Elt Ideal)) :
    kernelNorm (val_main_v14 (F := Ideal) x1) (val_main_v3 (F := Ideal) x1) (val_main_v6 (F := Ideal) x1)
      = val_main_v30 (F := Ideal) x1 := by
  unfold val_main_v30 val_main_v29 val_main_v28 val_main_v27 val_main_v26 val_main_v25 val_main_v24 val_main_c_5 val_main_v23 val_main_v22 val_main_c_4 val_main_v21 val_main_v20 val_main_v19 val_main_v18 val_main_v17 val_main_c_3 val_main_v16 val_main_v15 val_main_c
  generalize val_main_v14 (F := Ideal) x1 = dv
  generalize val_main_v3 (F := Ideal) x1 = s
  generalize val_main_v6 (F := Ideal) x1 = d
  unfold kernelNorm
  rfl

end Cert.Bridge

end
-- ==== Proof.Fold.lean ====
/-
  What the buffers hold at each boundary of the kernel's run, read back to the arguments.

  The run passes ten boundaries. Before the first region the host code builds, from the edge list alone, the edge
  sources (`main_v3`), the edge targets (`main_v6`) and the edge weights (`main_v30`); these three are the same
  operations, on the same argument, as the reference's stages of the same names, so they hold the reference's stage
  values. No later operation writes them, nor any argument, and no region has them among its output arrays; so each
  is still there, unchanged, at every later boundary where it is read.
-/
import proofs.«160670_j38654705664006_2_alg».proof.Proof.Gen.KernelIdeal.Frame
import proofs.«160670_j38654705664006_2_alg».proof.Proof.ReadP
import proofs.«160670_j38654705664006_2_alg».proof.Proof.HostAgg

set_option maxRecDepth 16384

noncomputable section

namespace Cert.KernelIdeal.Body

open Idealize.ShloMosaic Idealize.ShloMosaic.TcCoe Idealize.SL.Sem Idealize.ShloMosaic.StableHlo
open Cert.KernelIdeal Cert.KernelIdeal.Gen

/-- A buffer that no operation of a stretch of host code writes is unchanged across it. -/
macro "unwritten" ops:ident : tactic =>
  `(tactic| (refine StableHlo.after_of_forall_not_mem _ _ (List.forall_iff_forall_mem.mp ?_)
             simp only [$ops:ident, List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

variable (m : (ℓ : Loc nD τ sig) → Buf (Elt Ideal) ℓ) (ρ : Dev nD → PrngReg)

/-! ## Before the first region

The host code before the first region comes in three stretches. Each is read with the contents at its start held as
one unknown valuation, so that what is compared is only that stretch's own operations over a few named arrays. -/

/-! ### First stretch, from the launch memory: the edge list is unpacked and the degrees counted -/

/-- The edge sources: the first row of the edge list, then the self-loops 0 .. 99999. -/
theorem src1 (c : Dev nD) : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  after_results
  rfl

/-- The edge targets: the second row of the edge list, then the self-loops. -/
theorem dst1 (c : Dev nD) : W1 m ρ c (Proc.devRef .tc main_v6) = Cert.ReferenceIdeal.ReadP.val_main_v6 (F := Ideal) (m ((c : Thread nD τ).loc main_arg1)) := by
  show StableHlo.after hostOps0 (W0 m ρ c) (Proc.devRef .tc main_v6) = _
  after_results
  rfl

/-- Which nodes have a positive degree (the degree: ones added at every edge's target). -/
theorem pos1 (c : Dev nD) : W1 m ρ c (Proc.devRef .tc main_v12) = Cert.ReferenceIdeal.ReadP.val_main_v12 (F := Ideal) (m ((c : Thread nD τ).loc main_arg1)) := by
  show StableHlo.after hostOps0 (W0 m ρ c) (Proc.devRef .tc main_v12) = _
  after_results
  rfl

/-- The inverse square root of each node's degree. -/
theorem rsq1 (c : Dev nD) : W1 m ρ c (Proc.devRef .tc main_v13) = Cert.ReferenceIdeal.ReadP.val_main_v13 (F := Ideal) (m ((c : Thread nD τ).loc main_arg1)) := by
  show StableHlo.after hostOps0 (W0 m ρ c) (Proc.devRef .tc main_v13) = _
  after_results
  rfl

/-- The zero that replaces it where the degree is not positive. -/
theorem zero1 (c : Dev nD) : W1 m ρ c (Proc.devRef .tc main_cst_2) = Cert.ReferenceIdeal.ReadP.val_main_cst_2 (F := Ideal) := by
  show StableHlo.after hostOps0 (W0 m ρ c) (Proc.devRef .tc main_cst_2) = _
  after_results
  rfl

/-! ### Second stretch: the inverse square-root degree, zero where the degree is not positive -/

/-- From any contents, the second stretch leaves in `main_v14` that selection of three of the arrays it found. -/
theorem dinv_read (V : Valuation τ sig (Elt Ideal)) : StableHlo.after hostOps0_1 V (Proc.devRef .tc main_v14)
    = Cert.Bridge.kernelDinv (V (Proc.devRef .tc main_v12)) (V (Proc.devRef .tc main_v13)) (V (Proc.devRef .tc main_cst_2)) := by
  after_results
  rfl

theorem dinv2 (c : Dev nD) : W2 m ρ c (Proc.devRef .tc main_v14) = Cert.ReferenceIdeal.ReadP.val_main_v14 (F := Ideal) (m ((c : Thread nD τ).loc main_arg1)) := by
  refine (dinv_read (W1 m ρ c)).trans ?_
  rw [pos1 m ρ c, rsq1 m ρ c, zero1 m ρ c]
  exact Cert.Bridge.kernelDinv_eq14 _

theorem src2 (c : Dev nD) : W2 m ρ c (Proc.devRef .tc main_v3) = Cert.ReferenceIdeal.ReadP.val_main_v3 (F := Ideal) (m ((c : Thread nD τ).loc main_arg1)) :=
  (show W2 m ρ c (Proc.devRef .tc main_v3) = W1 m ρ c (Proc.devRef .tc main_v3) by unwritten hostOps0_1).trans (src1 m ρ c)
theorem dst2 (c : Dev nD) : W2 m ρ c (Proc.devRef .tc main_v6) = Cert.ReferenceIdeal.ReadP.val_main_v6 (F := Ideal) (m ((c : Thread nD τ).loc main_arg1)) :=
  (show W2 m ρ c (Proc.devRef .tc main_v6) = W1 m ρ c (Proc.devRef .tc main_v6) by unwritten hostOps0_1).trans (dst1 m ρ c)

/-! ### Third stretch: the edge weights -/

/-- From any contents, the third stretch leaves in `main_v30` the edge-weight column of three of the arrays it found. -/
theorem norm_read (V : Valuation τ sig (Elt Ideal)) : StableHlo.after hostOps0_2 V (Proc.devRef .tc main_v30)
    = Cert.Bridge.kernelNorm (V (Proc.devRef .tc main_v14)) (V (Proc.devRef .tc main_v3)) (V (Proc.devRef .tc main_v6)) := by
  after_results_simp
  rfl

/-- The edge weights: the product of the two endpoints' inverse square-root degrees, as one column. -/
theorem norm3 (c : Dev nD) : W3 m ρ c (Proc.devRef .tc main_v30) = Cert.ReferenceIdeal.ReadP.val_main_v30 (F := Ideal) (m ((c : Thread nD τ).loc main_arg1)) := by
  refine (norm_read (W2 m ρ c)).trans ?_
  rw [dinv2 m ρ c, src2 m ρ c, dst2 m ρ c]
  exact Cert.Bridge.kernelNorm_eq30 _

theorem src3 (c : Dev nD) : W3 m ρ c (Proc.devRef .tc main_v3) = Cert.ReferenceIdeal.ReadP.val_main_v3 (F := Ideal) (m ((c : Thread nD τ).loc main_arg1)) :=
  (show W3 m ρ c (Proc.devRef .tc main_v3) = W2 m ρ c (Proc.devRef .tc main_v3) by unwritten hostOps0_2).trans (src2 m ρ c)
theorem dst3 (c : Dev nD) : W3 m ρ c (Proc.devRef .tc main_v6) = Cert.ReferenceIdeal.ReadP.val_main_v6 (F := Ideal) (m ((c : Thread nD τ).loc main_arg1)) :=
  (show W3 m ρ c (Proc.devRef .tc main_v6) = W2 m ρ c (Proc.devRef .tc main_v6) by unwritten hostOps0_2).trans (dst2 m ρ c)

/-- No operation before the first region writes an argument. -/
theorem arg3 (c : Dev nD) (b : Ref sig .tc)
    (hb : b ∈ [main_arg0, main_arg2, main_arg3, main_arg4, main_arg5, main_arg6, main_arg7]) :
    W3 m ρ c (Proc.devRef .tc b) = m ((c : Thread nD τ).loc b) := by
  simp only [List.mem_cons, List.mem_singleton, List.not_mem_nil, or_false] at hb
  rcases hb with rfl | rfl | rfl | rfl | rfl | rfl | rfl <;>
    exact (show W3 m ρ c _ = W2 m ρ c _ by unwritten hostOps0_2).trans
      ((show W2 m ρ c _ = W1 m ρ c _ by unwritten hostOps0_1).trans
        ((show W1 m ρ c _ = W0 m ρ c _ by unwritten hostOps0).trans rfl))

/-! ## Across the regions and the stretches between them -/

/-- The region before boundary 4 has none of these among its arrays. -/
theorem keep4 (c : Dev nD) (b : Ref sig .tc) (hb : b ∈ [main_v3, main_v6, main_v30, main_arg3, main_arg4, main_arg5, main_arg6, main_arg7]) :
    W4 m ρ c (Proc.devRef .tc b) = W3 m ρ c (Proc.devRef .tc b) := by
  simp only [List.mem_cons, List.mem_singleton, List.not_mem_nil, or_false] at hb
  rcases hb with rfl | rfl | rfl | rfl | rfl | rfl | rfl | rfl <;> exact W4_of_ne m ρ c _ (by decide)

/-- The stretch of host code before boundary 5 writes none of these. -/
theorem keep5 (c : Dev nD) (b : Ref sig .tc) (hb : b ∈ [main_v3, main_v6, main_v30, main_arg4, main_arg5, main_arg6, main_arg7]) :
    W5 m ρ c (Proc.devRef .tc b) = W4 m ρ c (Proc.devRef .tc b) := by
  simp only [List.mem_cons, List.mem_singleton, List.not_mem_nil, or_false] at hb
  rcases hb with rfl | rfl | rfl | rfl | rfl | rfl | rfl <;> unwritten hostOps1

/-- The region before boundary 6 has none of these among its arrays. -/
theorem keep6 (c : Dev nD) (b : Ref sig .tc) (hb : b ∈ [main_v3, main_v6, main_v30, main_arg5, main_arg6, main_arg7]) :
    W6 m ρ c (Proc.devRef .tc b) = W5 m ρ c (Proc.devRef .tc b) := by
  simp only [List.mem_cons, List.mem_singleton, List.not_mem_nil, or_false] at hb
  rcases hb with rfl | rfl | rfl | rfl | rfl | rfl <;> exact W6_of_ne m ρ c _ (by decide)

/-- The stretch of host code before boundary 7 writes none of these. -/
theorem keep7 (c : Dev nD) (b : Ref sig .tc) (hb : b ∈ [main_v3, main_v6, main_v30, main_arg6, main_arg7]) :
    W7 m ρ c (Proc.devRef .tc b) = W6 m ρ c (Proc.devRef .tc b) := by
  simp only [List.mem_cons, List.mem_singleton, List.not_mem_nil, or_false] at hb
  rcases hb with rfl | rfl | rfl | rfl | rfl <;> unwritten hostOps2

/-- The region before boundary 8 has none of these among its arrays. -/
theorem keep8 (c : Dev nD) (b : Ref sig .tc) (hb : b ∈ [main_v3, main_v6, main_v30, main_arg7]) :
    W8 m ρ c (Proc.devRef .tc b) = W7 m ρ c (Proc.devRef .tc b) := by
  simp only [List.mem_cons, List.mem_singleton, List.not_mem_nil, or_false] at hb
  rcases hb with rfl | rfl | rfl | rfl <;> exact W8_of_ne m ρ c _ (by decide)

end Cert.KernelIdeal.Body

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibMatRows.lean ====
/-
  A plain matrix product of an `[a, k]` array with a `[k, n]` array, contracted over the shared axis of extent `k`, read
  at the result's entry `(p, c)` at the ideal values: the sum over `j : Fin k` of `lhs (p, j) * rhs (j, c)` — for the
  kernel's `tpu.matmul` into the zero accumulator and for the host's `dot_general` alike.

  It holds for ANY dimension record between those three shapes that says what a plain product says (`RowsTimesMat`): one
  contracted axis of extent `k`; the left operand read at the result's row and the contracted coordinate; the right operand
  at the contracted coordinate and the result's column. For a printed record the six facts are `rfl`, `rfl`,
  `DotDims.lhsIdx_val_of_single rfl` / `rhsIdx_val_of_single rfl` on the contracted axes, and two `dif` rewrites (not a
  batch axis, a kept axis) on the kept ones.
-/
import proofs.«160670_j38654705664006_2_alg».proof.Proof.LibContract1
import Idealize.ShloMosaic.PureOps.Ideal.Laws
import Idealize.ShloMosaic.Lib.ValueIdx

noncomputable section

namespace Cert.LibMatRows

open Idealize.ShloMosaic Idealize.ShloMosaic.ValueIdx

/-- What a dimension record between `[a, k]`, `[k, n]` and `[a, n]` must say to be a plain product. -/
structure RowsTimesMat {a k n : ℕ} (d : DotDims ⟨2, ![a, k]⟩ ⟨2, ![k, n]⟩ ⟨2, ![a, n]⟩) : Prop where
  rank : d.contr.rank = 1
  size : d.contr.size ⟨0, by omega⟩ = k
  l0 : ∀ (i : (⟨2, ![a, n]⟩ : Shape).Idx) (q : d.contr.Idx), (d.lhsIdx i q 0).val = (i 0).val
  l1 : ∀ (i : (⟨2, ![a, n]⟩ : Shape).Idx) (q : d.contr.Idx), (d.lhsIdx i q 1).val = (q ⟨0, by omega⟩).val
  r0 : ∀ (i : (⟨2, ![a, n]⟩ : Shape).Idx) (q : d.contr.Idx), (d.rhsIdx i q 0).val = (q ⟨0, by omega⟩).val
  r1 : ∀ (i : (⟨2, ![a, n]⟩ : Shape).Idx) (q : d.contr.Idx), (d.rhsIdx i q 1).val = (i 1).val

variable {a k n : ℕ} {d : DotDims ⟨2, ![a, k]⟩ ⟨2, ![k, n]⟩ ⟨2, ![a, n]⟩}

/-- The left operand's index at result entry `(p, c)` and contracted coordinate `j` is `(p, j)`. -/
theorem RowsTimesMat.lhsIdx_eq (hd : RowsTimesMat d) (p : Fin a) (c : Fin n) (j : Fin k) :
    d.lhsIdx (ix2 p c) ((contrEquiv1 d k hd.rank hd.size).symm j) = ix2 p j :=
  funext fun ax => Fin.ext (by
    match ax with
    | ⟨0, _⟩ => exact hd.l0 _ _
    | ⟨1, _⟩ => exact (hd.l1 _ _).trans (contrEquiv1_symm_val d k hd.rank hd.size j))

/-- The right operand's index at result entry `(p, c)` and contracted coordinate `j` is `(j, c)`. -/
theorem RowsTimesMat.rhsIdx_eq (hd : RowsTimesMat d) (p : Fin a) (c : Fin n) (j : Fin k) :
    d.rhsIdx (ix2 p c) ((contrEquiv1 d k hd.rank hd.size).symm j) = ix2 j c :=
  funext fun ax => Fin.ext (by
    match ax with
    | ⟨0, _⟩ => exact (hd.r0 _ _).trans (contrEquiv1_symm_val d k hd.rank hd.size j)
    | ⟨1, _⟩ => exact hd.r1 _ _)

/-- The kernel's product into the zero accumulator at `(p, c)`. -/
theorem matmul_rows {φ₁ φ₂ : FTy} (hd : RowsTimesMat d) (lhs : FVec Ideal ⟨2, ![a, k]⟩ φ₁) (rhs : FVec Ideal ⟨2, ![k, n]⟩ φ₂)
    (p : Fin a) (c : Fin n) :
    matmul d none lhs rhs (constant (F := Ideal) ⟨2, ![a, n]⟩ .f32 0x00000000#32) (ix2 p c) = ∑ j : Fin k, lhs (ix2 p j) * rhs (ix2 j c) :=
  LibContract1.matmul_zero_single d k hd.rank hd.size lhs rhs (ix2 p c) (fun j => ix2 p j) (fun j => ix2 j c)
    (hd.lhsIdx_eq p c) (hd.rhsIdx_eq p c)

/-- The host's product at `(p, c)`. -/
theorem dotGeneral_rows {φ₁ φ₂ : FTy} (hd : RowsTimesMat d) (lhs : FVec Ideal ⟨2, ![a, k]⟩ φ₁) (rhs : FVec Ideal ⟨2, ![k, n]⟩ φ₂)
    (p : Fin a) (c : Fin n) :
    Host.dotGeneral d none lhs rhs (ix2 p c) = ∑ j : Fin k, lhs (ix2 p j) * rhs (ix2 j c) :=
  LibContract1.dotGeneral_single d k hd.rank hd.size lhs rhs (ix2 p c) (fun j => ix2 p j) (fun j => ix2 j c)
    (hd.lhsIdx_eq p c) (hd.rhsIdx_eq p c)

end Cert.LibMatRows

end
-- ==== Proof.Payloads.lean ====
/-
  What each kernel body stores, read at one entry of its 10000 x 64 block, over the extended reals.

  Every body loads its whole input blocks, computes, and stores one whole block. A change of float format is the
  identity on the extended reals, so the three products read as plain sums over the 64 shared coordinates:

    first body         (p, q) |-> sum_j x(p, j) * w(j, q)
    second and third   (p, q) |-> sum_j max (a(p, j) + b(0, j)) 0 * w(j, q)
    last body          (p, q) |-> a(p, q) + b(0, q)

  where x, a are the block of 10000 rows, b the one bias row (spread over the rows) and w the 64 x 64 weights.
-/
import proofs.«160670_j38654705664006_2_alg».proof.Proof.Gen.KernelIdeal.Skeleton
import proofs.«160670_j38654705664006_2_alg».proof.Proof.LibMatRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

/-- The block product contracts the block's 64 columns against the weights' 64 rows and keeps the block's row and
    the weights' column: a plain rows-times-matrix product. -/
theorem blockDot : Cert.LibMatRows.RowsTimesMat (a := 10000) (k := 64) (n := 64) dot_S10000x64_S64x64_S10000x64_1_0_0_1_n_n where
  rank := rfl
  size := rfl
  l0 := fun i q => by
    unfold DotDims.lhsIdx
    rw [dif_neg (show ¬(0 : Fin S10000x64.rank) ∈ dot_S10000x64_S64x64_S10000x64_1_0_0_1_n_n.lhsBatch by decide),
      dif_pos (show (0 : Fin S10000x64.rank) ∈ dot_S10000x64_S64x64_S10000x64_1_0_0_1_n_n.lhsNonContracting by decide)]
    rfl
  l1 := fun i q => dot_S10000x64_S64x64_S10000x64_1_0_0_1_n_n.lhsIdx_val_of_single rfl i q
  r0 := fun i q => dot_S10000x64_S64x64_S10000x64_1_0_0_1_n_n.rhsIdx_val_of_single rfl i q
  r1 := fun i q => by
    unfold DotDims.rhsIdx
    rw [dif_neg (show ¬(1 : Fin S64x64.rank) ∈ dot_S10000x64_S64x64_S10000x64_1_0_0_1_n_n.rhsBatch by decide),
      dif_pos (show (1 : Fin S64x64.rank) ∈ dot_S10000x64_S64x64_S10000x64_1_0_0_1_n_n.rhsNonContracting by decide)]
    rfl

/-- The first body's block at (p, q): row p of the input block against column q of the weights. -/
theorem pay0_apply (x : FVec Ideal S10000x64 .f32) (w : FVec Ideal S64x64 .f32) (p : Fin 10000) (q : Fin 64) :
    k0_pay1 (F := Ideal) x w (ix2 p q) = ∑ j : Fin 64, x (ix2 p j) * w (ix2 j q) := by
  unfold k0_pay1
  exact (Cert.LibMatRows.matmul_rows blockDot (truncf .bf16 x bitsLt_bf16_f32) (truncf .bf16 w bitsLt_bf16_f32) p q).trans
    (Finset.sum_congr rfl fun j _ => rfl)

/-- The biased, clamped row entry the second and third bodies feed their product. -/
theorem act_apply (a : FVec Ideal S10000x64 .f32) (b : FVec Ideal S1x64 .f32) (p : Fin 10000) (j : Fin 64) :
    maximumf (addf (shapeCast S10000x64 a shapeCasts_S10000x64_S10000x64)
        (broadcastTo S10000x64 (shapeCast S1x64 b shapeCasts_S1x64_S1x64) broadcasts_S1x64_S10000x64))
      (broadcast S10000x64 (Scalar.ofBits (F := Ideal) .f32 0x00000000#32)) (ix2 p j)
    = max (a (ix2 p j) + b (ix2 (0 : Fin 1) j)) 0 := by
  show max ((shapeCast S10000x64 a shapeCasts_S10000x64_S10000x64) (ix2 p j)
      + (broadcastTo S10000x64 (shapeCast S1x64 b shapeCasts_S1x64_S1x64) broadcasts_S1x64_S10000x64) (ix2 p j))
    (Ideal.ofBits .f32 0x00000000#32) = _
  rw [shapeCast_self, shapeCast_self, broadcastTo_1b_ab_apply, Ideal.ofBits_zero_f32]

/-- The second body's block at (p, q). -/
theorem pay1_apply (a : FVec Ideal S10000x64 .f32) (b : FVec Ideal S1x64 .f32) (w : FVec Ideal S64x64 .f32)
    (p : Fin 10000) (q : Fin 64) :
    k1_pay1 (F := Ideal) a b w (ix2 p q) = ∑ j : Fin 64, max (a (ix2 p j) + b (ix2 (0 : Fin 1) j)) 0 * w (ix2 j q) := by
  unfold k1_pay1
  refine (Cert.LibMatRows.matmul_rows blockDot _ _ p q).trans (Finset.sum_congr rfl fun j _ => ?_)
  exact congrArg (· * w (ix2 j q)) (act_apply a b p j)

/-- The third body's block at (p, q): the same function as the second's. -/
theorem pay2_apply (a : FVec Ideal S10000x64 .f32) (b : FVec Ideal S1x64 .f32) (w : FVec Ideal S64x64 .f32)
    (p : Fin 10000) (q : Fin 64) :
    k2_pay1 (F := Ideal) a b w (ix2 p q) = ∑ j : Fin 64, max (a (ix2 p j) + b (ix2 (0 : Fin 1) j)) 0 * w (ix2 j q) := by
  unfold k2_pay1
  refine (Cert.LibMatRows.matmul_rows blockDot _ _ p q).trans (Finset.sum_congr rfl fun j _ => ?_)
  exact congrArg (· * w (ix2 j q)) (act_apply a b p j)

/-- The last body's block at (p, q): the aggregate plus the bias of its column. -/
theorem pay3_apply (a : FVec Ideal S10000x64 .f32) (b : FVec Ideal S1x64 .f32) (p : Fin 10000) (q : Fin 64) :
    k3_pay1 (F := Ideal) a b (ix2 p q) = a (ix2 p q) + b (ix2 (0 : Fin 1) q) := by
  unfold k3_pay1
  show (shapeCast S10000x64 a shapeCasts_S10000x64_S10000x64) (ix2 p q)
      + (broadcastTo S10000x64 (shapeCast S1x64 b shapeCasts_S1x64_S1x64) broadcasts_S1x64_S10000x64) (ix2 p q) = _
  rw [shapeCast_self, shapeCast_self, broadcastTo_1b_ab_apply]

end Cert.KernelIdeal.Body

end
-- ==== Proof.Blocks.lean ====
/-
  The three whole-array functions the four regions compute, entry by entry, over the extended reals
  (arrays of 100000 rows and 64 columns; weights 64 x 64; a bias as one row of 64):

    product x w            (r, c) |-> sum_k x(r, k) * w(k, c)
    layer a b w            (r, c) |-> sum_k max (a(r, k) + b(0, k)) 0 * w(k, c)
    biased a b             (r, c) |-> a(r, c) + b(0, c)

  and the same three read through one block of 10000 rows: if a block's entry y sits at the array's entry e, the
  block's rows are the array's rows there, and the small operands are read whole, then what a body stores at y is
  the whole-array function at e.
-/
import proofs.«160670_j38654705664006_2_alg».proof.Proof.Payloads

noncomputable section

namespace Cert.KernelIdeal.Body

open Idealize.ShloMosaic Idealize.ShloMosaic.ValueIdx Cert.KernelIdeal Cert.KernelIdeal.Gen

/-- A block read from its origin is read at zero offsets on both axes. -/
theorem zero_offsets : (![0, 0] : Fin 2 → Nat) = fun _ => 0 := funext fun a => by fin_cases a <;> rfl

/-- Rows of x against columns of w. -/
def product (x : S100000x64.Idx → EReal) (w : S64x64.Idx → EReal) : S100000x64.Idx → EReal :=
  fun i => ∑ k : Fin 64, x (ix2 (i 0) k) * w (ix2 k (i 1))

/-- Bias, clamp at zero, then rows against columns of w. -/
def layer (a : S100000x64.Idx → EReal) (b : S1x64.Idx → EReal) (w : S64x64.Idx → EReal) : S100000x64.Idx → EReal :=
  fun i => ∑ k : Fin 64, max (a (ix2 (i 0) k) + b (ix2 (0 : Fin 1) k)) 0 * w (ix2 k (i 1))

/-- The bias row added to every row. -/
def biased (a : S100000x64.Idx → EReal) (b : S1x64.Idx → EReal) : S100000x64.Idx → EReal :=
  fun i => a i + b (ix2 (0 : Fin 1) (i 1))

theorem product_block (x : FVec Ideal S10000x64 .f32) (w : FVec Ideal S64x64 .f32)
    (X : S100000x64.Idx → EReal) (W : S64x64.Idx → EReal) (y : S10000x64.Idx) (e : S100000x64.Idx)
    (hx : ∀ k : Fin 64, x (ix2 (y 0) k) = X (ix2 (e 0) k)) (hw : ∀ k : Fin 64, w (ix2 k (y 1)) = W (ix2 k (e 1))) :
    k0_pay1 (F := Ideal) x w y = product X W e := by
  obtain ⟨p, q, rfl⟩ : ∃ (p : Fin 10000) (q : Fin 64), y = ix2 p q := ⟨y 0, y 1, eq_ix2 y⟩
  rw [pay0_apply]
  exact Finset.sum_congr rfl fun k _ => by
    rw [show x (ix2 p k) = X (ix2 (e 0) k) from hx k, show w (ix2 k q) = W (ix2 k (e 1)) from hw k]

theorem layer_block1 (a : FVec Ideal S10000x64 .f32) (b : FVec Ideal S1x64 .f32) (w : FVec Ideal S64x64 .f32)
    (A : S100000x64.Idx → EReal) (B : S1x64.Idx → EReal) (W : S64x64.Idx → EReal) (y : S10000x64.Idx) (e : S100000x64.Idx)
    (ha : ∀ k : Fin 64, a (ix2 (y 0) k) = A (ix2 (e 0) k)) (hb : ∀ k : Fin 64, b (ix2 (0 : Fin 1) k) = B (ix2 (0 : Fin 1) k))
    (hw : ∀ k : Fin 64, w (ix2 k (y 1)) = W (ix2 k (e 1))) :
    k1_pay1 (F := Ideal) a b w y = layer A B W e := by
  obtain ⟨p, q, rfl⟩ : ∃ (p : Fin 10000) (q : Fin 64), y = ix2 p q := ⟨y 0, y 1, eq_ix2 y⟩
  rw [pay1_apply]
  exact Finset.sum_congr rfl fun k _ => by
    rw [show a (ix2 p k) = A (ix2 (e 0) k) from ha k, hb k, show w (ix2 k q) = W (ix2 k (e 1)) from hw k]

theorem layer_block2 (a : FVec Ideal S10000x64 .f32) (b : FVec Ideal S1x64 .f32) (w : FVec Ideal S64x64 .f32)
    (A : S100000x64.Idx → EReal) (B : S1x64.Idx → EReal) (W : S64x64.Idx → EReal) (y : S10000x64.Idx) (e : S100000x64.Idx)
    (ha : ∀ k : Fin 64, a (ix2 (y 0) k) = A (ix2 (e 0) k)) (hb : ∀ k : Fin 64, b (ix2 (0 : Fin 1) k) = B (ix2 (0 : Fin 1) k))
    (hw : ∀ k : Fin 64, w (ix2 k (y 1)) = W (ix2 k (e 1))) :
    k2_pay1 (F := Ideal) a b w y = layer A B W e := by
  obtain ⟨p, q, rfl⟩ : ∃ (p : Fin 10000) (q : Fin 64), y = ix2 p q := ⟨y 0, y 1, eq_ix2 y⟩
  rw [pay2_apply]
  exact Finset.sum_congr rfl fun k _ => by
    rw [show a (ix2 p k) = A (ix2 (e 0) k) from ha k, hb k, show w (ix2 k q) = W (ix2 k (e 1)) from hw k]

theorem biased_block (a : FVec Ideal S10000x64 .f32) (b : FVec Ideal S1x64 .f32)
    (A : S100000x64.Idx → EReal) (B : S1x64.Idx → EReal) (y : S10000x64.Idx) (e : S100000x64.Idx)
    (ha : a (ix2 (y 0) (y 1)) = A e) (hb : b (ix2 (0 : Fin 1) (y 1)) = B (ix2 (0 : Fin 1) (e 1))) :
    k3_pay1 (F := Ideal) a b y = biased A B e := by
  obtain ⟨p, q, rfl⟩ : ∃ (p : Fin 10000) (q : Fin 64), y = ix2 p q := ⟨y 0, y 1, eq_ix2 y⟩
  rw [pay3_apply]
  show a (ix2 p q) + b (ix2 (0 : Fin 1) q) = A e + B (ix2 (0 : Fin 1) (e 1))
  rw [show a (ix2 p q) = A e from ha, show b (ix2 (0 : Fin 1) q) = B (ix2 (0 : Fin 1) (e 1)) from hb]

end Cert.KernelIdeal.Body

end
-- ==== Proof.Region0.lean ====
/-
  The first region: ten blocks of 10000 rows. At grid point t the body reads rows 10000 t .. 10000 t + 9999 of the
  node features and the whole 64 x 64 weights, and writes the same rows of the result. Each written entry is that
  row of the features against a column of the weights, so the blocks are the restrictions of ONE function of the
  whole arrays (`product`); the ten blocks tile the 100000 rows (row r lies in block r / 10000), so the result array
  ends holding that function.
-/
import proofs.«160670_j38654705664006_2_alg».proof.Proof.Gen.KernelIdeal.Frame
import proofs.«160670_j38654705664006_2_alg».proof.Proof.Blocks
import Idealize.ShloMosaic.Lib.Pipeline.Value

set_option maxRecDepth 16384

noncomputable section

namespace Cert.KernelIdeal.Body

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- Where the three windows sit at grid point t: the row-blocked ones at block row t, the weights at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row 0..9 is some grid point's. -/
theorem onto0 : ∀ q : Fin 10, ∃ t : Fin cfg0.N, win0_2.index t (0 : Fin 2) = q.val :=
  (by decide +kernel : ∀ q : Fin 10, ∃ t : Fin grid0.N, win0_2.index t (0 : Fin 2) = q.val)

/-- What grid point t writes back is block t of `product` of the features and the weights as the region finds them. -/
theorem flushed0 (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x64) zero_offsets, View.ld_unit_zero (S := S64x64) zero_offsets]
  obtain ⟨e0, e1, e2, e3, e4, e5⟩ := idx0 t
  funext j
  show k0_pay1 (F := Ideal) (iblk0 V c 0 t) (iblk0 V c 1 t) j
    = product (V c main_arg0) (V c main_arg2) (((cfg0.win 2).blk t).view.emb j)
  refine product_block (iblk0 V c 0 t) (iblk0 V c 1 t) (V c main_arg0) (V c main_arg2) j (((cfg0.win 2).blk t).view.emb j)
    (fun k => ?_) (fun k => ?_)
  · show V c main_arg0 (((cfg0.win 0).blk t).view.emb (ix2 (j 0) k))
      = V c main_arg0 (ix2 ((((cfg0.win 2).blk t).view.emb j) 0) k)
    refine congrArg (V c main_arg0) (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 64 + 1 * k.val = k.val
      omega
  · show V c main_arg2 (((cfg0.win 1).blk t).view.emb (ix2 k (j 1)))
      = V c main_arg2 (ix2 k ((((cfg0.win 2).blk t).view.emb j) 1))
    refine congrArg (V c main_arg2) (funext fun a => Fin.ext ?_)
    match a with
    | ⟨0, _⟩ =>
      show win0_1.index t (0 : Fin 2) * 64 + 1 * k.val = k.val
      omega
    | ⟨1, _⟩ =>
      show win0_1.index t (1 : Fin 2) * 64 + 1 * (j 1).val = win0_2.index t (1 : Fin 2) * 64 + 1 * (j 1).val
      omega

/-- An entry of the result lies in grid point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v31).slice (win0_2.rect t)).set ↔ _
  rw [View.set_slice_whole, Rect.mem_set_unit]
  exact Iff.rfl

/-- The result array after the region: `product` of the features and the weights, everywhere. -/
theorem final0 (c : Dev nD) : (dat0 V c).arrAt 2 cfg0.N = product (V c main_arg0) (V c main_arg2) :=
  (dat0 V c).arrAt_eq_of_cover 2 (product (V c main_arg0) (V c main_arg2)) (fun t _ => flushed0 V c t) fun i => by
    have hi0 : (i 0).val < 100000 := (i 0).isLt
    have hi1 : (i 1).val < 64 := (i 1).isLt
    obtain ⟨t, ht⟩ := onto0 ⟨(i 0).val / 10000, by omega⟩
    have q0 : win0_2.index t (0 : Fin 2) = (i 0).val / 10000 := ht
    have q1 : win0_2.index t (1 : Fin 2) = 0 := (idx0 t).2.2.2.2.2
    refine ⟨t, flush0_2 t, ?_⟩
    rw [mem_blk0]
    intro a
    match a with
    | ⟨0, _⟩ =>
      show win0_2.index t (0 : Fin 2) * 10000 ≤ (i 0).val ∧ (i 0).val < win0_2.index t (0 : Fin 2) * 10000 + 10000
      omega
    | ⟨1, _⟩ =>
      show win0_2.index t (1 : Fin 2) * 64 ≤ (i 1).val ∧ (i 1).val < win0_2.index t (1 : Fin 2) * 64 + 64
      omega

end Cert.KernelIdeal.Body

end
-- ==== Proof.Region1.lean ====
/-
  Region 1: ten blocks of 10000 rows. At grid point t the body reads rows 10000 t .. 10000 t + 9999 of the aggregate,
  the one bias row and the whole 64 x 64 weights, and writes the same rows of the result: each entry is that row of
  the aggregate, biased and clamped at zero, against a column of the weights. So the blocks are the restrictions of ONE
  function of the whole arrays (`layer`); the ten blocks tile the 100000 rows (row r lies in block r / 10000), so the
  result array ends holding that function.
-/
import proofs.«160670_j38654705664006_2_alg».proof.Proof.Gen.KernelIdeal.Frame
import proofs.«160670_j38654705664006_2_alg».proof.Proof.Blocks
import Idealize.ShloMosaic.Lib.Pipeline.Value

set_option maxRecDepth 16384

noncomputable section

namespace Cert.KernelIdeal.Body

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- Where the four windows sit at grid point t: the row-blocked ones at block row t, the bias row and the weights at
    the origin. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every block row 0..9 is some grid point's. -/
theorem onto1 : ∀ q : Fin 10, ∃ t : Fin cfg1.N, win1_3.index t (0 : Fin 2) = q.val :=
  (by decide +kernel : ∀ q : Fin 10, ∃ t : Fin grid1.N, win1_3.index t (0 : Fin 2) = q.val)

/-- What grid point t writes back is block t of `layer` of the aggregate, the bias row and the weights as the region
    finds them. -/
theorem flushed1 (c : Dev nD) (t : Fin cfg1.N) :
    (dat1 V c).flushed 3 t
      = ((cfg1.win 3).blk t).view.read (Elt Ideal) (layer (V c main_v44) (V c main_v45) (V c main_arg4)) := by
  show (cfg1.win 3).cut (grid1.coords t) ((dat1 V c).after 3 t) = _
  rw [after1_3]
  unfold out1_3
  rw [View.canon_unit_zero zero_offsets]
  simp only [View.ld_unit_zero (S := S10000x64) zero_offsets, View.ld_unit_zero (S := S1x64) zero_offsets,
    View.ld_unit_zero (S := S64x64) zero_offsets]
  obtain ⟨e0, e1, e2, e3, e4, e5, e6, e7⟩ := idx1 t
  funext j
  show k1_pay1 (F := Ideal) (iblk1 V c 0 t) (iblk1 V c 1 t) (iblk1 V c 2 t) j
    = layer (V c main_v44) (V c main_v45) (V c main_arg4) (((cfg1.win 3).blk t).view.emb j)
  refine layer_block1 (iblk1 V c 0 t) (iblk1 V c 1 t) (iblk1 V c 2 t) (V c main_v44) (V c main_v45) (V c main_arg4) j
    (((cfg1.win 3).blk t).view.emb j) (fun k => ?_) (fun k => ?_) (fun k => ?_)
  · show V c main_v44 (((cfg1.win 0).blk t).view.emb (ix2 (j 0) k))
      = V c main_v44 (ix2 ((((cfg1.win 3).blk t).view.emb j) 0) k)
    refine congrArg (V c main_v44) (funext fun a => Fin.ext ?_)
    match a with
    | ⟨0, _⟩ =>
      show win1_0.index t (0 : Fin 2) * 10000 + 1 * (j 0).val = win1_3.index t (0 : Fin 2) * 10000 + 1 * (j 0).val
      omega
    | ⟨1, _⟩ =>
      show win1_0.index t (1 : Fin 2) * 64 + 1 * k.val = k.val
      omega
  · show V c main_v45 (((cfg1.win 1).blk t).view.emb (ix2 (0 : Fin 1) k)) = V c main_v45 (ix2 (0 : Fin 1) k)
    refine congrArg (V c main_v45) (funext fun a => Fin.ext ?_)
    match a with
    | ⟨0, _⟩ =>
      show win1_1.index t (0 : Fin 2) * 1 + 1 * 0 = 0
      omega
    | ⟨1, _⟩ =>
      show win1_1.index t (1 : Fin 2) * 64 + 1 * k.val = k.val
      omega
  · show V c main_arg4 (((cfg1.win 2).blk t).view.emb (ix2 k (j 1)))
      = V c main_arg4 (ix2 k ((((cfg1.win 3).blk t).view.emb j) 1))
    refine congrArg (V c main_arg4) (funext fun a => Fin.ext ?_)
    match a with
    | ⟨0, _⟩ =>
      show win1_2.index t (0 : Fin 2) * 64 + 1 * k.val = k.val
      omega
    | ⟨1, _⟩ =>
      show win1_2.index t (1 : Fin 2) * 64 + 1 * (j 1).val = win1_3.index t (1 : Fin 2) * 64 + 1 * (j 1).val
      omega

/-- An entry of the result lies in grid point t's block iff each coordinate is in the block's range on its axis. -/
theorem mem_blk1 (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v46).slice (win1_3.rect t)).set ↔ _
  rw [View.set_slice_whole, Rect.mem_set_unit]
  exact Iff.rfl

/-- The result array after the region: `layer` of the aggregate, the bias row and the weights, everywhere. -/
theorem final1 (c : Dev nD) :
    (dat1 V c).arrAt 3 cfg1.N = layer (V c main_v44) (V c main_v45) (V c main_arg4) :=
  (dat1 V c).arrAt_eq_of_cover 3 (layer (V c main_v44) (V c main_v45) (V c main_arg4)) (fun t _ => flushed1 V c t) fun i => by
    have hi0 : (i 0).val < 100000 := (i 0).isLt
    have hi1 : (i 1).val < 64 := (i 1).isLt
    obtain ⟨t, ht⟩ := onto1 ⟨(i 0).val / 10000, by omega⟩
    have q0 : win1_3.index t (0 : Fin 2) = (i 0).val / 10000 := ht
    have q1 : win1_3.index t (1 : Fin 2) = 0 := (idx1 t).2.2.2.2.2.2.2
    refine ⟨t, flush1_3 t, ?_⟩
    rw [mem_blk1]
    intro a
    match a with
    | ⟨0, _⟩ =>
      show win1_3.index t (0 : Fin 2) * 10000 ≤ (i 0).val ∧ (i 0).val < win1_3.index t (0 : Fin 2) * 10000 + 10000
      omega
    | ⟨1, _⟩ =>
      show win1_3.index t (1 : Fin 2) * 64 ≤ (i 1).val ∧ (i 1).val < win1_3.index t (1 : Fin 2) * 64 + 64
      omega

end Cert.KernelIdeal.Body

end
-- ==== Proof.Region2.lean ====
/-
  Region 2: ten blocks of 10000 rows. At grid point t the body reads rows 10000 t .. 10000 t + 9999 of the aggregate,
  the one bias row and the whole 64 x 64 weights, and writes the same rows of the result: each entry is that row of
  the aggregate, biased and clamped at zero, against a column of the weights. So the blocks are the restrictions of ONE
  function of the whole arrays (`layer`); the ten blocks tile the 100000 rows (row r lies in block r / 10000), so the
  result array ends holding that function.
-/
import proofs.«160670_j38654705664006_2_alg».proof.Proof.Gen.KernelIdeal.Frame
import proofs.«160670_j38654705664006_2_alg».proof.Proof.Blocks
import Idealize.ShloMosaic.Lib.Pipeline.Value

set_option maxRecDepth 16384

noncomputable section

namespace Cert.KernelIdeal.Body

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- Where the four windows sit at grid point t: the row-blocked ones at block row t, the bias row and the weights at
    the origin. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Every block row 0..9 is some grid point's. -/
theorem onto2 : ∀ q : Fin 10, ∃ t : Fin cfg2.N, win2_3.index t (0 : Fin 2) = q.val :=
  (by decide +kernel : ∀ q : Fin 10, ∃ t : Fin grid2.N, win2_3.index t (0 : Fin 2) = q.val)

/-- What grid point t writes back is block t of `layer` of the aggregate, the bias row and the weights as the region
    finds them. -/
theorem flushed2 (c : Dev nD) (t : Fin cfg2.N) :
    (dat2 V c).flushed 3 t
      = ((cfg2.win 3).blk t).view.read (Elt Ideal) (layer (V c main_v59) (V c main_v60) (V c main_arg6)) := by
  show (cfg2.win 3).cut (grid2.coords t) ((dat2 V c).after 3 t) = _
  rw [after2_3]
  unfold out2_3
  rw [View.canon_unit_zero zero_offsets]
  simp only [View.ld_unit_zero (S := S10000x64) zero_offsets, View.ld_unit_zero (S := S1x64) zero_offsets,
    View.ld_unit_zero (S := S64x64) zero_offsets]
  obtain ⟨e0, e1, e2, e3, e4, e5, e6, e7⟩ := idx2 t
  funext j
  show k2_pay1 (F := Ideal) (iblk2 V c 0 t) (iblk2 V c 1 t) (iblk2 V c 2 t) j
    = layer (V c main_v59) (V c main_v60) (V c main_arg6) (((cfg2.win 3).blk t).view.emb j)
  refine layer_block2 (iblk2 V c 0 t) (iblk2 V c 1 t) (iblk2 V c 2 t) (V c main_v59) (V c main_v60) (V c main_arg6) j
    (((cfg2.win 3).blk t).view.emb j) (fun k => ?_) (fun k => ?_) (fun k => ?_)
  · show V c main_v59 (((cfg2.win 0).blk t).view.emb (ix2 (j 0) k))
      = V c main_v59 (ix2 ((((cfg2.win 3).blk t).view.emb j) 0) k)
    refine congrArg (V c main_v59) (funext fun a => Fin.ext ?_)
    match a with
    | ⟨0, _⟩ =>
      show win2_0.index t (0 : Fin 2) * 10000 + 1 * (j 0).val = win2_3.index t (0 : Fin 2) * 10000 + 1 * (j 0).val
      omega
    | ⟨1, _⟩ =>
      show win2_0.index t (1 : Fin 2) * 64 + 1 * k.val = k.val
      omega
  · show V c main_v60 (((cfg2.win 1).blk t).view.emb (ix2 (0 : Fin 1) k)) = V c main_v60 (ix2 (0 : Fin 1) k)
    refine congrArg (V c main_v60) (funext fun a => Fin.ext ?_)
    match a with
    | ⟨0, _⟩ =>
      show win2_1.index t (0 : Fin 2) * 1 + 1 * 0 = 0
      omega
    | ⟨1, _⟩ =>
      show win2_1.index t (1 : Fin 2) * 64 + 1 * k.val = k.val
      omega
  · show V c main_arg6 (((cfg2.win 2).blk t).view.emb (ix2 k (j 1)))
      = V c main_arg6 (ix2 k ((((cfg2.win 3).blk t).view.emb j) 1))
    refine congrArg (V c main_arg6) (funext fun a => Fin.ext ?_)
    match a with
    | ⟨0, _⟩ =>
      show win2_2.index t (0 : Fin 2) * 64 + 1 * k.val = k.val
      omega
    | ⟨1, _⟩ =>
      show win2_2.index t (1 : Fin 2) * 64 + 1 * (j 1).val = win2_3.index t (1 : Fin 2) * 64 + 1 * (j 1).val
      omega

/-- An entry of the result lies in grid point t's block iff each coordinate is in the block's range on its axis. -/
theorem mem_blk2 (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v61).slice (win2_3.rect t)).set ↔ _
  rw [View.set_slice_whole, Rect.mem_set_unit]
  exact Iff.rfl

/-- The result array after the region: `layer` of the aggregate, the bias row and the weights, everywhere. -/
theorem final2 (c : Dev nD) :
    (dat2 V c).arrAt 3 cfg2.N = layer (V c main_v59) (V c main_v60) (V c main_arg6) :=
  (dat2 V c).arrAt_eq_of_cover 3 (layer (V c main_v59) (V c main_v60) (V c main_arg6)) (fun t _ => flushed2 V c t) fun i => by
    have hi0 : (i 0).val < 100000 := (i 0).isLt
    have hi1 : (i 1).val < 64 := (i 1).isLt
    obtain ⟨t, ht⟩ := onto2 ⟨(i 0).val / 10000, by omega⟩
    have q0 : win2_3.index t (0 : Fin 2) = (i 0).val / 10000 := ht
    have q1 : win2_3.index t (1 : Fin 2) = 0 := (idx2 t).2.2.2.2.2.2.2
    refine ⟨t, flush2_3 t, ?_⟩
    rw [mem_blk2]
    intro a
    match a with
    | ⟨0, _⟩ =>
      show win2_3.index t (0 : Fin 2) * 10000 ≤ (i 0).val ∧ (i 0).val < win2_3.index t (0 : Fin 2) * 10000 + 10000
      omega
    | ⟨1, _⟩ =>
      show win2_3.index t (1 : Fin 2) * 64 ≤ (i 1).val ∧ (i 1).val < win2_3.index t (1 : Fin 2) * 64 + 64
      omega

end Cert.KernelIdeal.Body

end
-- ==== Proof.Region3.lean ====
/-
  The last region: ten blocks of 10000 rows. At grid point t the body reads rows 10000 t .. 10000 t + 9999 of the last
  aggregate and the one bias row, and writes the same rows of the result: each entry is the aggregate's entry plus the
  bias of its column. So the blocks are the restrictions of ONE function of the whole arrays (`biased`); the ten blocks
  tile the 100000 rows, so the result array ends holding that function.
-/
import proofs.«160670_j38654705664006_2_alg».proof.Proof.Gen.KernelIdeal.Frame
import proofs.«160670_j38654705664006_2_alg».proof.Proof.Blocks
import Idealize.ShloMosaic.Lib.Pipeline.Value

set_option maxRecDepth 16384

noncomputable section

namespace Cert.KernelIdeal.Body

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- Where the three windows sit at grid point t: the row-blocked ones at block row t, the bias row at the origin. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every block row 0..9 is some grid point's. -/
theorem onto3 : ∀ q : Fin 10, ∃ t : Fin cfg3.N, win3_2.index t (0 : Fin 2) = q.val :=
  (by decide +kernel : ∀ q : Fin 10, ∃ t : Fin grid3.N, win3_2.index t (0 : Fin 2) = q.val)

/-- What grid point t writes back is block t of `biased` of the aggregate and the bias row as the region finds them. -/
theorem flushed3 (c : Dev nD) (t : Fin cfg3.N) :
    (dat3 V c).flushed 2 t = ((cfg3.win 2).blk t).view.read (Elt Ideal) (biased (V c main_v74) (V c main_v75)) := by
  show (cfg3.win 2).cut (grid3.coords t) ((dat3 V c).after 2 t) = _
  rw [after3_2]
  unfold out3_2
  rw [View.canon_unit_zero zero_offsets]
  simp only [View.ld_unit_zero (S := S10000x64) zero_offsets, View.ld_unit_zero (S := S1x64) zero_offsets]
  obtain ⟨e0, e1, e2, e3, e4, e5⟩ := idx3 t
  funext j
  show k3_pay1 (F := Ideal) (iblk3 V c 0 t) (iblk3 V c 1 t) j
    = biased (V c main_v74) (V c main_v75) (((cfg3.win 2).blk t).view.emb j)
  refine biased_block (iblk3 V c 0 t) (iblk3 V c 1 t) (V c main_v74) (V c main_v75) j (((cfg3.win 2).blk t).view.emb j) ?_ ?_
  · show V c main_v74 (((cfg3.win 0).blk t).view.emb (ix2 (j 0) (j 1))) = V c main_v74 (((cfg3.win 2).blk t).view.emb j)
    refine congrArg (V c main_v74) (funext fun a => Fin.ext ?_)
    match a with
    | ⟨0, _⟩ =>
      show win3_0.index t (0 : Fin 2) * 10000 + 1 * (j 0).val = win3_2.index t (0 : Fin 2) * 10000 + 1 * (j 0).val
      omega
    | ⟨1, _⟩ =>
      show win3_0.index t (1 : Fin 2) * 64 + 1 * (j 1).val = win3_2.index t (1 : Fin 2) * 64 + 1 * (j 1).val
      omega
  · show V c main_v75 (((cfg3.win 1).blk t).view.emb (ix2 (0 : Fin 1) (j 1)))
      = V c main_v75 (ix2 (0 : Fin 1) ((((cfg3.win 2).blk t).view.emb j) 1))
    refine congrArg (V c main_v75) (funext fun a => Fin.ext ?_)
    match a with
    | ⟨0, _⟩ =>
      show win3_1.index t (0 : Fin 2) * 1 + 1 * 0 = 0
      omega
    | ⟨1, _⟩ =>
      show win3_1.index t (1 : Fin 2) * 64 + 1 * (j 1).val = win3_2.index t (1 : Fin 2) * 64 + 1 * (j 1).val
      omega

/-- An entry of the result lies in grid point t's block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v76).slice (win3_2.rect t)).set ↔ _
  rw [View.set_slice_whole, Rect.mem_set_unit]
  exact Iff.rfl

/-- The result array after the region: `biased` of the aggregate and the bias row, everywhere. -/
theorem final3 (c : Dev nD) : (dat3 V c).arrAt 2 cfg3.N = biased (V c main_v74) (V c main_v75) :=
  (dat3 V c).arrAt_eq_of_cover 2 (biased (V c main_v74) (V c main_v75)) (fun t _ => flushed3 V c t) fun i => by
    have hi0 : (i 0).val < 100000 := (i 0).isLt
    have hi1 : (i 1).val < 64 := (i 1).isLt
    obtain ⟨t, ht⟩ := onto3 ⟨(i 0).val / 10000, by omega⟩
    have q0 : win3_2.index t (0 : Fin 2) = (i 0).val / 10000 := ht
    have q1 : win3_2.index t (1 : Fin 2) = 0 := (idx3 t).2.2.2.2.2
    refine ⟨t, flush3_2 t, ?_⟩
    rw [mem_blk3]
    intro a
    match a with
    | ⟨0, _⟩ =>
      show win3_2.index t (0 : Fin 2) * 10000 ≤ (i 0).val ∧ (i 0).val < win3_2.index t (0 : Fin 2) * 10000 + 10000
      omega
    | ⟨1, _⟩ =>
      show win3_2.index t (1 : Fin 2) * 64 ≤ (i 1).val ∧ (i 1).val < win3_2.index t (1 : Fin 2) * 64 + 64
      omega

end Cert.KernelIdeal.Body

end
-- ==== Proof.RefStages.lean ====
/-
  The reference, stage by stage, is the same three whole-array functions.

  Its first product is `product`; each later layer takes the aggregate before it, adds the bias spread over the
  rows, clamps at zero and multiplies by the next weights, which is `layer`; its result is the last aggregate plus
  the bias, which is `biased`. In each the bias enters only through its 64 entries, so it may be given as any
  one-row array b with b(0, k) the k-th entry: the reference spreads the vector itself, the kernel first reshapes it
  to one row.
-/
import proofs.«160670_j38654705664006_2_alg».proof.Proof.ReadP
import proofs.«160670_j38654705664006_2_alg».proof.Proof.Blocks
import Idealize.ShloMosaic.Lib.ValueLayout

noncomputable section

namespace Cert.Bridge

open Idealize.ShloMosaic Idealize.ShloMosaic.ValueIdx
open Cert.ReferenceIdeal Cert.ReferenceIdeal.ReadP
open Cert.KernelIdeal.Body (product layer biased)

theorem lidx31 (p : Fin 100000) (q k : Fin 64) : lidx_main_v31 (ix2 p q) k = ix2 p k :=
  funext fun a => by match a with | ⟨0, _⟩ => rfl | ⟨1, _⟩ => rfl
theorem ridx31 (p : Fin 100000) (q k : Fin 64) : ridx_main_v31 (ix2 p q) k = ix2 k q :=
  funext fun a => by match a with | ⟨0, _⟩ => rfl | ⟨1, _⟩ => rfl

/-- The first product is the reference's `dot_general` of the features and the first weights. -/
theorem product_eq31 (x0 : (⟨S100000x64, .f32⟩ : BufTy).Contents (Elt Ideal)) (x2 : (⟨S64x64, .f32⟩ : BufTy).Contents (Elt Ideal)) :
    product x0 x2 = val_main_v31 (F := Ideal) x0 x2 := by
  funext i
  obtain ⟨p, q, rfl⟩ : ∃ (p : Fin 100000) (q : Fin 64), i = ix2 p q := ⟨i 0, i 1, eq_ix2 i⟩
  rw [val_main_v31_apply]
  refine Finset.sum_congr rfl fun k _ => ?_
  rw [lidx31, ridx31]

theorem lidx48 (p : Fin 100000) (q k : Fin 64) : lidx_main_v48 (ix2 p q) k = ix2 p k :=
  funext fun a => by match a with | ⟨0, _⟩ => rfl | ⟨1, _⟩ => rfl
theorem ridx48 (p : Fin 100000) (q k : Fin 64) : ridx_main_v48 (ix2 p q) k = ix2 k q :=
  funext fun a => by match a with | ⟨0, _⟩ => rfl | ⟨1, _⟩ => rfl

/-- Bias, clamp, then the product with the next weights, of the aggregate `val_main_v43`: the reference's own
    stage `val_main_v48`, entry by entry; b is the bias as one row, however it was laid out. -/
theorem layer_eq48 (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal))
    (b : S1x64.Idx → EReal) (hb : ∀ k : Fin 64, b (ix2 (0 : Fin 1) k) = x3 (ix1 k)) :
    layer (val_main_v43 (F := Ideal) x0 x1 x2) b x4 = val_main_v48 (F := Ideal) x0 x1 x2 x3 x4 := by
  funext i
  obtain ⟨p, q, rfl⟩ : ∃ (p : Fin 100000) (q : Fin 64), i = ix2 p q := ⟨i 0, i 1, eq_ix2 i⟩
  rw [val_main_v48_apply]
  refine Finset.sum_congr rfl fun k _ => ?_
  rw [lidx48, ridx48, val_main_v47_apply (F := Ideal), val_main_v46_apply (F := Ideal), val_main_v45_apply (F := Ideal),
    val_main_v44_apply (F := Ideal), val_main_call1_v0_apply (F := Ideal), val_main_call1_cst_apply (F := Ideal)]
  show max (val_main_v43 (F := Ideal) x0 x1 x2 (ix2 p k) + b (ix2 (0 : Fin 1) k)) 0 * x4 (ix2 k q)
    = max (val_main_v43 (F := Ideal) x0 x1 x2 (ix2 p k) + x3 (idx_main_v44 (idx_main_v45 (ix2 p k))))
        (Ideal.ofBits .f32 0x00000000#32) * x4 (ix2 k q)
  rw [hb k, Ideal.ofBits_zero_f32]
  exact congrArg (fun z => max (val_main_v43 (F := Ideal) x0 x1 x2 (ix2 p k) + x3 z) 0 * x4 (ix2 k q))
    (funext fun a => by match a with | ⟨0, _⟩ => rfl)

theorem lidx65 (p : Fin 100000) (q k : Fin 64) : lidx_main_v65 (ix2 p q) k = ix2 p k :=
  funext fun a => by match a with | ⟨0, _⟩ => rfl | ⟨1, _⟩ => rfl
theorem ridx65 (p : Fin 100000) (q k : Fin 64) : ridx_main_v65 (ix2 p q) k = ix2 k q :=
  funext fun a => by match a with | ⟨0, _⟩ => rfl | ⟨1, _⟩ => rfl

/-- Bias, clamp, then the product with the next weights, of the aggregate `val_main_v60`: the reference's own
    stage `val_main_v65`, entry by entry; b is the bias as one row, however it was laid out. -/
theorem layer_eq65 (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal))
    (b : S1x64.Idx → EReal) (hb : ∀ k : Fin 64, b (ix2 (0 : Fin 1) k) = x5 (ix1 k)) :
    layer (val_main_v60 (F := Ideal) x0 x1 x2 x3 x4) b x6 = val_main_v65 (F := Ideal) x0 x1 x2 x3 x4 x5 x6 := by
  funext i
  obtain ⟨p, q, rfl⟩ : ∃ (p : Fin 100000) (q : Fin 64), i = ix2 p q := ⟨i 0, i 1, eq_ix2 i⟩
  rw [val_main_v65_apply]
  refine Finset.sum_congr rfl fun k _ => ?_
  rw [lidx65, ridx65, val_main_v64_apply (F := Ideal), val_main_v63_apply (F := Ideal), val_main_v62_apply (F := Ideal),
    val_main_v61_apply (F := Ideal), val_main_call2_v0_apply (F := Ideal), val_main_call2_cst_apply (F := Ideal)]
  show max (val_main_v60 (F := Ideal) x0 x1 x2 x3 x4 (ix2 p k) + b (ix2 (0 : Fin 1) k)) 0 * x6 (ix2 k q)
    = max (val_main_v60 (F := Ideal) x0 x1 x2 x3 x4 (ix2 p k) + x5 (idx_main_v61 (idx_main_v62 (ix2 p k))))
        (Ideal.ofBits .f32 0x00000000#32) * x6 (ix2 k q)
  rw [hb k, Ideal.ofBits_zero_f32]
  exact congrArg (fun z => max (val_main_v60 (F := Ideal) x0 x1 x2 x3 x4 (ix2 p k) + x5 z) 0 * x6 (ix2 k q))
    (funext fun a => by match a with | ⟨0, _⟩ => rfl)

/-- The last aggregate plus the bias is the reference's result. -/
theorem biased_eq80 (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal))
    (b : S1x64.Idx → EReal) (hb : ∀ k : Fin 64, b (ix2 (0 : Fin 1) k) = x7 (ix1 k)) :
    biased (val_main_v77 (F := Ideal) x0 x1 x2 x3 x4 x5 x6) b = val_main_v80 (F := Ideal) x0 x1 x2 x3 x4 x5 x6 x7 := by
  funext i
  obtain ⟨p, q, rfl⟩ : ∃ (p : Fin 100000) (q : Fin 64), i = ix2 p q := ⟨i 0, i 1, eq_ix2 i⟩
  rw [val_main_v80_apply (F := Ideal), val_main_v79_apply (F := Ideal), val_main_v78_apply (F := Ideal)]
  show val_main_v77 (F := Ideal) x0 x1 x2 x3 x4 x5 x6 (ix2 p q) + b (ix2 (0 : Fin 1) q)
    = val_main_v77 (F := Ideal) x0 x1 x2 x3 x4 x5 x6 (ix2 p q) + x7 (idx_main_v78 (idx_main_v79 (ix2 p q)))
  refine congrArg (val_main_v77 (F := Ideal) x0 x1 x2 x3 x4 x5 x6 (ix2 p q) + ·) ((hb q).trans (congrArg x7 ?_))
  exact funext fun a => by match a with | ⟨0, _⟩ => rfl

end Cert.Bridge

end
-- ==== Proof.Chain.lean ====
/-
  The kernel's result is the reference's result, boundary by boundary.

  Write x0 .. x7 for the eight arguments. Going through the run in order, every value the kernel holds where the
  reference has a stage IS that stage of the reference, as a function of the arguments:

    after region 0                 x0 times the first weights                         (the reference's first product)
    after the next host stretch    its aggregate over the edges                       (the reference's first aggregate)
    after region 1                 bias, clamp, times the second weights              (the reference's second product)
    ... the same twice more ...
    after region 3                 the last aggregate plus the last bias              (the reference's result)

  Each line uses the line before it, the region's whole-array function or the host stretch's aggregate, and the fact
  that sources, targets, weights and arguments are still what they were.
-/
import proofs.«160670_j38654705664006_2_alg».proof.Proof.Fold
import proofs.«160670_j38654705664006_2_alg».proof.Proof.Region0
import proofs.«160670_j38654705664006_2_alg».proof.Proof.Region1
import proofs.«160670_j38654705664006_2_alg».proof.Proof.Region2
import proofs.«160670_j38654705664006_2_alg».proof.Proof.Region3
import proofs.«160670_j38654705664006_2_alg».proof.Proof.HostAgg
import proofs.«160670_j38654705664006_2_alg».proof.Proof.RefStages

set_option maxRecDepth 16384

noncomputable section

namespace Cert.KernelIdeal.Body

open Idealize.ShloMosaic Idealize.ShloMosaic.TcCoe Idealize.ShloMosaic.ValueIdx Idealize.SL.Sem Idealize.ShloMosaic.StableHlo
open Cert.KernelIdeal Cert.KernelIdeal.Gen Cert.KernelIdeal.Facts₀ Cert.KernelIdeal.Facts

variable (m : (ℓ : Loc nD τ sig) → Buf (Elt Ideal) ℓ) (ρ : Dev nD → PrngReg)

/-! ## Layer one -/

/-- Region 0's result: the reference's first product. -/
theorem out0 (c : Dev nD) : W4 m ρ c (Proc.devRef .tc main_v31) = Cert.ReferenceIdeal.ReadP.val_main_v31 (F := Ideal) (m ((c : Thread nD τ).loc main_arg0)) (m ((c : Thread nD τ).loc main_arg2)) := by
  refine (W4_arr m ρ c 2).trans ((final0 (V3 m ρ) c).trans ?_)
  show product (W3 m ρ c (Proc.devRef .tc main_arg0)) (W3 m ρ c (Proc.devRef .tc main_arg2)) = _
  rw [arg3 m ρ c main_arg0 (by decide), arg3 m ρ c main_arg2 (by decide)]
  exact Cert.Bridge.product_eq31 _ _

theorem at4_src (c : Dev nD) : W4 m ρ c (Proc.devRef .tc main_v3) = Cert.ReferenceIdeal.ReadP.val_main_v3 (F := Ideal) (m ((c : Thread nD τ).loc main_arg1)) :=
  (keep4 m ρ c main_v3 (by decide)).trans (src3 m ρ c)
theorem at4_dst (c : Dev nD) : W4 m ρ c (Proc.devRef .tc main_v6) = Cert.ReferenceIdeal.ReadP.val_main_v6 (F := Ideal) (m ((c : Thread nD τ).loc main_arg1)) :=
  (keep4 m ρ c main_v6 (by decide)).trans (dst3 m ρ c)
theorem at4_norm (c : Dev nD) : W4 m ρ c (Proc.devRef .tc main_v30) = Cert.ReferenceIdeal.ReadP.val_main_v30 (F := Ideal) (m ((c : Thread nD τ).loc main_arg1)) :=
  (keep4 m ρ c main_v30 (by decide)).trans (norm3 m ρ c)
/-- An argument not yet used is still as launched after region 0. -/
theorem at4_arg (c : Dev nD) (b : Ref sig .tc) (hb : b ∈ [main_arg3, main_arg4, main_arg5, main_arg6, main_arg7]) :
    W4 m ρ c (Proc.devRef .tc b) = m ((c : Thread nD τ).loc b) := by
  simp only [List.mem_cons, List.mem_singleton, List.not_mem_nil, or_false] at hb
  rcases hb with rfl | rfl | rfl | rfl | rfl <;>
    exact (keep4 m ρ c _ (by decide)).trans (arg3 m ρ c _ (by decide))

/-- The first aggregate, at boundary 5: the reference's stage `val_main_v43`. -/
theorem agg1 (c : Dev nD) : W5 m ρ c (Proc.devRef .tc main_v44) = Cert.ReferenceIdeal.ReadP.val_main_v43 (F := Ideal) (m ((c : Thread nD τ).loc main_arg0)) (m ((c : Thread nD τ).loc main_arg1)) (m ((c : Thread nD τ).loc main_arg2)) := by
  have h : W5 m ρ c (Proc.devRef .tc main_v44) = Cert.Bridge.kernelAgg (W4 m ρ c (Proc.devRef .tc main_v31)) (W4 m ρ c (Proc.devRef .tc main_v3))
      (W4 m ρ c (Proc.devRef .tc main_v6)) (W4 m ρ c (Proc.devRef .tc main_v30)) := by
    show StableHlo.after hostOps1 (W4 m ρ c) (Proc.devRef .tc main_v44) = _
    after_results_simp
    rfl
  rw [h, out0 m ρ c, at4_src m ρ c, at4_dst m ρ c, at4_norm m ρ c]
  exact Cert.Bridge.kernelAgg_eq43 _ _ _

/-- The bias of layer 1, reshaped to one row by the host code before boundary 5: its entry (0, k) is the vector's k-th. -/
theorem row1 (c : Dev nD) (k : Fin 64) :
    (W5 m ρ c (Proc.devRef .tc main_v45) : S1x64.Idx → EReal) (ix2 (0 : Fin 1) k) = (m ((c : Thread nD τ).loc main_arg3)) (ix1 k) := by
  have h : W5 m ρ c (Proc.devRef .tc main_v45) = shapeCast S1x64 (W4 m ρ c (Proc.devRef .tc main_arg3)) Facts₀.shapeCasts_S64_S1x64 := by
    show StableHlo.after hostOps1 (W4 m ρ c) (Proc.devRef .tc main_v45) = _
    after_results
    rfl
  rw [h, at4_arg m ρ c main_arg3 (by decide)]
  exact shapeCast_a_1a_apply _ _ (0 : Fin 1) k

theorem at5_w (c : Dev nD) : W5 m ρ c (Proc.devRef .tc main_arg4) = (m ((c : Thread nD τ).loc main_arg4)) :=
  (keep5 m ρ c main_arg4 (by decide)).trans (at4_arg m ρ c main_arg4 (by decide))

/-! ## Layer two -/

/-- Region 1's result: the reference's second product. -/
theorem out1 (c : Dev nD) : W6 m ρ c (Proc.devRef .tc main_v46) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 3).trans ((final1 (V5 m ρ) c).trans ?_)
  show layer (W5 m ρ c (Proc.devRef .tc main_v44)) (W5 m ρ c (Proc.devRef .tc main_v45)) (W5 m ρ c (Proc.devRef .tc main_arg4)) = _
  rw [agg1 m ρ c, at5_w m ρ c]
  exact Cert.Bridge.layer_eq48 _ _ _ _ _ _ (row1 m ρ c)

theorem at6_src (c : Dev nD) : W6 m ρ c (Proc.devRef .tc main_v3) = Cert.ReferenceIdeal.ReadP.val_main_v3 (F := Ideal) (m ((c : Thread nD τ).loc main_arg1)) :=
  (keep6 m ρ c main_v3 (by decide)).trans ((keep5 m ρ c main_v3 (by decide)).trans (at4_src m ρ c))
theorem at6_dst (c : Dev nD) : W6 m ρ c (Proc.devRef .tc main_v6) = Cert.ReferenceIdeal.ReadP.val_main_v6 (F := Ideal) (m ((c : Thread nD τ).loc main_arg1)) :=
  (keep6 m ρ c main_v6 (by decide)).trans ((keep5 m ρ c main_v6 (by decide)).trans (at4_dst m ρ c))
theorem at6_norm (c : Dev nD) : W6 m ρ c (Proc.devRef .tc main_v30) = Cert.ReferenceIdeal.ReadP.val_main_v30 (F := Ideal) (m ((c : Thread nD τ).loc main_arg1)) :=
  (keep6 m ρ c main_v30 (by decide)).trans ((keep5 m ρ c main_v30 (by decide)).trans (at4_norm m ρ c))
theorem at6_arg (c : Dev nD) (b : Ref sig .tc) (hb : b ∈ [main_arg5, main_arg6, main_arg7]) :
    W6 m ρ c (Proc.devRef .tc b) = m ((c : Thread nD τ).loc b) := by
  simp only [List.mem_cons, List.mem_singleton, List.not_mem_nil, or_false] at hb
  rcases hb with rfl | rfl | rfl <;>
    exact (keep6 m ρ c _ (by decide)).trans ((keep5 m ρ c _ (by decide)).trans (at4_arg m ρ c _ (by decide)))

/-- The second aggregate, at boundary 7: the reference's stage `val_main_v60`. -/
theorem agg2 (c : Dev nD) : W7 m ρ c (Proc.devRef .tc main_v59) = Cert.ReferenceIdeal.ReadP.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have h : W7 m ρ c (Proc.devRef .tc main_v59) = Cert.Bridge.kernelAgg (W6 m ρ c (Proc.devRef .tc main_v46)) (W6 m ρ c (Proc.devRef .tc main_v3))
      (W6 m ρ c (Proc.devRef .tc main_v6)) (W6 m ρ c (Proc.devRef .tc main_v30)) := by
    show StableHlo.after hostOps2 (W6 m ρ c) (Proc.devRef .tc main_v59) = _
    after_results_simp
    rfl
  rw [h, out1 m ρ c, at6_src m ρ c, at6_dst m ρ c, at6_norm m ρ c]
  exact Cert.Bridge.kernelAgg_eq60 _ _ _ _ _

/-- The bias of layer 2, reshaped to one row by the host code before boundary 7: its entry (0, k) is the vector's k-th. -/
theorem row2 (c : Dev nD) (k : Fin 64) :
    (W7 m ρ c (Proc.devRef .tc main_v60) : S1x64.Idx → EReal) (ix2 (0 : Fin 1) k) = (m ((c : Thread nD τ).loc main_arg5)) (ix1 k) := by
  have h : W7 m ρ c (Proc.devRef .tc main_v60) = shapeCast S1x64 (W6 m ρ c (Proc.devRef .tc main_arg5)) Facts₀.shapeCasts_S64_S1x64 := by
    show StableHlo.after hostOps2 (W6 m ρ c) (Proc.devRef .tc main_v60) = _
    after_results
    rfl
  rw [h, at6_arg m ρ c main_arg5 (by decide)]
  exact shapeCast_a_1a_apply _ _ (0 : Fin 1) k

theorem at7_w (c : Dev nD) : W7 m ρ c (Proc.devRef .tc main_arg6) = (m ((c : Thread nD τ).loc main_arg6)) :=
  (keep7 m ρ c main_arg6 (by decide)).trans (at6_arg m ρ c main_arg6 (by decide))

/-! ## Layer three -/

/-- Region 2's result: the reference's third product. -/
theorem out2 (c : Dev nD) : W8 m ρ c (Proc.devRef .tc main_v61) = Cert.ReferenceIdeal.ReadP.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 3).trans ((final2 (V7 m ρ) c).trans ?_)
  show layer (W7 m ρ c (Proc.devRef .tc main_v59)) (W7 m ρ c (Proc.devRef .tc main_v60)) (W7 m ρ c (Proc.devRef .tc main_arg6)) = _
  rw [agg2 m ρ c, at7_w m ρ c]
  exact Cert.Bridge.layer_eq65 _ _ _ _ _ _ _ _ (row2 m ρ c)

theorem at8_src (c : Dev nD) : W8 m ρ c (Proc.devRef .tc main_v3) = Cert.ReferenceIdeal.ReadP.val_main_v3 (F := Ideal) (m ((c : Thread nD τ).loc main_arg1)) :=
  (keep8 m ρ c main_v3 (by decide)).trans ((keep7 m ρ c main_v3 (by decide)).trans (at6_src m ρ c))
theorem at8_dst (c : Dev nD) : W8 m ρ c (Proc.devRef .tc main_v6) = Cert.ReferenceIdeal.ReadP.val_main_v6 (F := Ideal) (m ((c : Thread nD τ).loc main_arg1)) :=
  (keep8 m ρ c main_v6 (by decide)).trans ((keep7 m ρ c main_v6 (by decide)).trans (at6_dst m ρ c))
theorem at8_norm (c : Dev nD) : W8 m ρ c (Proc.devRef .tc main_v30) = Cert.ReferenceIdeal.ReadP.val_main_v30 (F := Ideal) (m ((c : Thread nD τ).loc main_arg1)) :=
  (keep8 m ρ c main_v30 (by decide)).trans ((keep7 m ρ c main_v30 (by decide)).trans (at6_norm m ρ c))
theorem at8_b (c : Dev nD) : W8 m ρ c (Proc.devRef .tc main_arg7) = (m ((c : Thread nD τ).loc main_arg7)) :=
  (keep8 m ρ c main_arg7 (by decide)).trans ((keep7 m ρ c main_arg7 (by decide)).trans (at6_arg m ρ c main_arg7 (by decide)))

/-- The third aggregate, at boundary 9: the reference's stage `val_main_v77`. -/
theorem agg3 (c : Dev nD) : W9 m ρ c (Proc.devRef .tc main_v74) = Cert.ReferenceIdeal.ReadP.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h : W9 m ρ c (Proc.devRef .tc main_v74) = Cert.Bridge.kernelAgg (W8 m ρ c (Proc.devRef .tc main_v61)) (W8 m ρ c (Proc.devRef .tc main_v3))
      (W8 m ρ c (Proc.devRef .tc main_v6)) (W8 m ρ c (Proc.devRef .tc main_v30)) := by
    show StableHlo.after hostOps3 (W8 m ρ c) (Proc.devRef .tc main_v74) = _
    after_results_simp
    rfl
  rw [h, out2 m ρ c, at8_src m ρ c, at8_dst m ρ c, at8_norm m ρ c]
  exact Cert.Bridge.kernelAgg_eq77 _ _ _ _ _ _ _

/-- The bias of layer 3, reshaped to one row by the host code before boundary 9: its entry (0, k) is the vector's k-th. -/
theorem row3 (c : Dev nD) (k : Fin 64) :
    (W9 m ρ c (Proc.devRef .tc main_v75) : S1x64.Idx → EReal) (ix2 (0 : Fin 1) k) = (m ((c : Thread nD τ).loc main_arg7)) (ix1 k) := by
  have h : W9 m ρ c (Proc.devRef .tc main_v75) = shapeCast S1x64 (W8 m ρ c (Proc.devRef .tc main_arg7)) Facts₀.shapeCasts_S64_S1x64 := by
    show StableHlo.after hostOps3 (W8 m ρ c) (Proc.devRef .tc main_v75) = _
    after_results
    rfl
  rw [h, at8_b m ρ c]
  exact shapeCast_a_1a_apply _ _ (0 : Fin 1) k

/-! ## The result -/

/-- Region 3's result, the kernel's result: the reference's result, as a function of the eight arguments. -/
theorem result_eq (c : Dev nD) : W10 m ρ c (Proc.devRef .tc main_v76) = Cert.ReferenceIdeal.ReadP.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 2).trans ((final3 (V9 m ρ) c).trans ?_)
  show biased (W9 m ρ c (Proc.devRef .tc main_v74)) (W9 m ρ c (Proc.devRef .tc main_v75)) = _
  rw [agg3 m ρ c]
  exact Cert.Bridge.biased_eq80 _ _ _ _ _ _ _ _ _ (row3 m ρ c)

end Cert.KernelIdeal.Body

end
-- ==== Proof.lean ====
/-
  The certificate of the graph-convolution kernel against its reference, over the extended reals.

  Both programs compute, for node features x, an edge list and three layers (W_l, b_l):

      h_1 = relu (A (x W_1) + b_1),   h_2 = relu (A (h_1 W_2) + b_2),   out = A (h_2 W_3) + b_3

  where A scales each edge's source row by the edge's weight (the product of its endpoints' inverse square-root
  degrees, self-loops included) and adds it into the edge's target row. The reference is one host program. The kernel
  cuts the same computation at different places: four regions of ten row blocks each (x W_1; relu (. + b_l) W_(l+1)
  twice; . + b_3) with the aggregation A done by host code between them, and it stores the products in a narrower
  float format. On the extended reals a change of format is the identity, a block product into a zero accumulator is
  the same sum over the 64 shared coordinates as the reference's product, and the row blocks tile the rows; nothing is
  reordered across the aggregation, so no finiteness of the inputs is needed and the precondition is never opened.

  The frames: the two kernel programs' are the generated frame certificates; the reference's is its run with the result
  dropped. The idealization rewrote no operation, so `preserves` is `True`. For `algebraic` both runs end with the
  result at one and the same function of the arguments, the reference's own last stage `val_main_v80`.
-/
import proofs.«160670_j38654705664006_2_alg».proof.Defs
import proofs.«160670_j38654705664006_2_alg».proof.Proof.Gen.Kernel
import proofs.«160670_j38654705664006_2_alg».proof.Proof.Gen.Kernel.Frame
import proofs.«160670_j38654705664006_2_alg».proof.Proof.Gen.KernelIdeal
import proofs.«160670_j38654705664006_2_alg».proof.Proof.Gen.KernelIdeal.Frame
import proofs.«160670_j38654705664006_2_alg».proof.Proof.Gen.ReferenceIdeal
import proofs.«160670_j38654705664006_2_alg».proof.Proof.Gen.Pre_finite_inputs
import proofs.«160670_j38654705664006_2_alg».proof.Proof.RunP
import proofs.«160670_j38654705664006_2_alg».proof.Proof.ReadP
import proofs.«160670_j38654705664006_2_alg».proof.Proof.KernelRun
import proofs.«160670_j38654705664006_2_alg».proof.Proof.Chain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference runs, and leaves its arguments as they were: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments both programs end with the result at the reference's last stage of those
    arguments: the kernel by going through its ten boundaries (`result_eq`), the reference by its own run. -/
theorem algebraic : Cert.algebraic_KernelIdeal_ReferenceIdeal := by
  intro m ρ m' ρ' _ hagree
  refine ⟨fun c => Cert.KernelIdeal.Gen.W10 m ρ c (Proc.devRef .tc Cert.KernelIdeal.main_v76),
    Cert.KernelIdeal.Body.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7⟩ := hagree c
  rw [Cert.ReferenceIdeal.ReadP.val_main_v80_eq, a0, a1, a2, a3, a4, a5, a6, a7]
  exact (Cert.KernelIdeal.Body.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
